-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S8192x1 : Shape := ⟨2, ![8192, 1]⟩
abbrev S1024x128 : Shape := ⟨2, ![1024, 128]⟩
abbrev S1024x1 : Shape := ⟨2, ![1024, 1]⟩
abbrev S1024 : Shape := ⟨1, ![1024]⟩
abbrev S1x8192 : Shape := ⟨2, ![1, 8192]⟩
abbrev S512x128 : Shape := ⟨2, ![512, 128]⟩
abbrev S1x512 : Shape := ⟨2, ![1, 512]⟩
abbrev S1024x512 : Shape := ⟨2, ![1024, 512]⟩
abbrev S_ : Shape := ⟨0, ![]⟩

abbrev nBuf : Space → Nat
  | .hbm => 12
  | .vmem => 21
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x128, .bf16⟩
  | .hbm, ⟨4, _⟩ => ⟨S8192x1, .f32⟩
  | .hbm, ⟨5, _⟩ => ⟨S8192x1, .i32⟩
  | .hbm, ⟨6, _⟩ => ⟨S1x8192, .i32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .bf16⟩
  | .local _ .vmem, ⟨6, _⟩ => ⟨S1024x1, .f32⟩
  | .local _ .vmem, ⟨7, _⟩ => ⟨S1024x1, .f32⟩
  | .local _ .vmem, ⟨8, _⟩ => ⟨S1024x128, .bf16⟩
  | .local _ .vmem, ⟨9, _⟩ => ⟨S1024x128, .bf16⟩
  | .local _ .vmem, ⟨10, _⟩ => ⟨S512x128, .bf16⟩
  | .local _ .vmem, ⟨11, _⟩ => ⟨S512x128, .bf16⟩
  | .local _ .vmem, ⟨12, _⟩ => ⟨S1024x1, .i32⟩
  | .local _ .vmem, ⟨13, _⟩ => ⟨S1024x1, .i32⟩
  | .local _ .vmem, ⟨14, _⟩ => ⟨S1x512, .i32⟩
  | .local _ .vmem, ⟨15, _⟩ => ⟨S1x512, .i32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  inb_S1024x1_S1024x1_0_0 : ∀ a, (![0, 0] : Fin 2 → Nat) a + S1024x1.size a ≤ S1024x1.size a
  h_S1024x1 : 0 < S1024x1.numel
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  shapeCasts_S8192_S8192x1 : S8192.ShapeCasts S8192x1
  shapeCasts_S8192_S1x8192 : S8192.ShapeCasts S1x8192
  shapeCasts_S1024x1_S1024x1 : S1024x1.ShapeCasts S1024x1
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  reducesTo_S8192x1_S_d0_1 : S8192x1.ReducesTo [0, 1] S_
  h_S_ : 0 < S_.numel
  dot_S1024x128_S512x128_S1024x512_1_1_0_0_n_n_wf : DotDims.WF S1024x128 S512x128 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .bf16 = 32 ∨ (Rect.block (s := S8192x128) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)

variable [Facts₀]

def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x128, .f32⟩
  | .hbm, ⟨47, _⟩ => ⟨S8192x128, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_call1_cst : Ref sig .tc := ⟨.hbm, 54, rfl⟩
abbrev main_call1_v0 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.Region0K.lean ====
/-
  The first pallas_call (the normalising kernel) as a pipeline region, at any float algebra.

  The region runs on a grid of 8 points. At point t it stages rows 1024·t … 1024·t + 1023 of the anchor array (window 0)
  and of the positive array (window 1), and writes back the same rows of the scaled anchor array (window 2) and of
  the squared-distance column (window 3). Everything below is stated at a parameter V: the buffer contents when the
  region is entered.

  What the body leaves in an output's staging buffer is one whole-buffer store, so it is the stored payload: the
  scaled anchor block for window 2 (a function of the anchor block only), the row sums of the squared difference
  of the two scaled blocks for window 3. The body also reads each output buffer once before it stores to it; the
  value read is not used, so the outputs are held at any contents on entry.
-/
import proofs.«170105_j8323646619735_1_alg».proof.Proof.Gen.Kernel.Launch
import proofs.«170105_j8323646619735_1_alg».proof.Proof.Gen.Kernel.Skeleton
import proofs.«170105_j8323646619735_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t: the rows 1024·t … 1024·t + 1023 of its array, as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The anchor window's staging buffer holds the anchor block at every point, for any proof data whose array is
    the entry contents and whose body leaves the block in place: an input window is refetched at every point
    and the body does not write to it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the positive window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole staging buffer -/

abbrev rA : Rect S1024x128 := Rect.unit (s := S1024x128) ![0, 0] S1024x128.size inb_S1024x128_S1024x128_0_0
abbrev rC : Rect S1024x1 := Rect.unit (s := S1024x1) ![0, 0] S1024x1.size inb_S1024x1_S1024x1_0_0

/-! ## What the body leaves in each output window's buffer -/

/-- The scaled-anchor buffer after the body: the scaled anchor block (in the narrower format), from the anchor block. -/
def out0_2 (x0 : Vec F S1024x128 .f32) : Vec F S1024x128 .bf16 :=
  View.canon [⟨rA, k0_pay3 (View.ld x0 rA)⟩]

/-- The distance-column buffer after the body: per row the sum of squares of the difference of the two scaled
    blocks, from the anchor block and the positive block. -/
def out0_3 (x0 : Vec F S1024x128 .f32) (x1 : Vec F S1024x128 .f32) : Vec F S1024x1 .f32 :=
  View.canon [⟨rC, k0_pay2 (View.ld x0 rA) (View.ld x1 rA)⟩]

/-- One whole-buffer store covers the buffer. -/
theorem cover0_2 (p0 : Vec F S1024x128 .bf16) (y : S1024x128.Idx) :
    ∃ pc ∈ ([⟨rA, p0⟩] : List (View.Piece (Elt F) S1024x128 .bf16)), y ∈ pc.1.set :=
  View.cover_of_tiled [⟨rA, p0⟩] S1024x128.size (by rfl) y

theorem cover0_3 (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

/-! ## The body's triple -/

set_option maxHeartbeats 1000000 in
/-- The kernel body on whole staging memrefs, the inputs' at contents x0, x1 and the outputs' at anything, runs to
    the continuation holding the inputs' as they were and each output's at its stored payload. -/
theorem sound_kernel0 (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .bf16) (harg3 : arg3.IsWhole) (arg4 : Memref sig .tc .vmem S1024x1 .f32) (harg4 : arg4.IsWhole)
    (x0 : Vec F S1024x128 .f32) (x1 : Vec F S1024x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of the region on core c: the arrays as the region finds them; after the body at point t each
    input's buffer at its block and each output's at its payload of the input blocks; the invariant holds the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.LibWholeStore.lean ====
/-
  Whole-buffer accesses read back.

  A store through the rectangle that spans a whole shape (offsets zero, the shape's own sizes), made last, leaves
  its payload whatever was stored before and whatever the buffer held; a load through that rectangle of a whole
  memref whose contents read `x` reads `x`. Both are stated over an abstract shape, so that no proof about a
  particular buffer ever unfolds membership in a rectangle of its extents.
-/
import Idealize.ShloMosaic.Lib.Pipeline.FrameBody
import Idealize.ShloMosaic.Lib.Pipeline.Value

noncomputable section

namespace Cert.LibWholeStore

open Idealize.ShloMosaic

variable {sig : RefSig} {κ : Kind} {sp : Space} {S : Shape} {e : EltTy} {Val : EltTy → Type}

/-- After a list of stores whose LAST is a store of `w` through the whole-shape rectangle, the view reads `w`. -/
theorem read_writes_whole [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.mem_cons.mpr (Or.inl rfl),
      View.mem_set_unit_zero h inb y⟩), View.canon_cons_unit_zero h]

/-- A load through the whole-shape rectangle of a whole memref holding (as read through its view) `x` reads `x`. -/
theorem readAt_unread_whole (m : Memref sig κ sp S e) (hm : m.IsWhole) (x : S.Idx → Val e)
    {off : Fin S.rank → Nat} (h : off = fun _ => 0) (inb : ∀ a, off a + S.size a ≤ S.size a) :
    m.view.readAt Val (Rect.unit off S.size inb).toLoadRect (hm.unread x) = x := by
  rw [View.readAt_eq_ld, hm.read_unread, View.ld_unit_zero h]

end Cert.LibWholeStore

end
-- ==== Proof.Region1RunK.lean ====
/-
  The second kernel (the nearest-other-label search) at one grid point (i, k), on whole staging buffers.

  The running minimum lives in a scratch column that is carried from one column tile to the next. At a point the body
    · resets the scratch to +∞ when k = 0,
    · replaces it by its minimum with this tile's row minima (the payload named k1_pay3 of the five loaded blocks
      and the scratch),
    · and, when k = 15, stores the loss column max(posd − s² + ½, 0) of the final scratch s (the payload k1_pay1).
  Every load and store goes through the rectangle spanning the whole buffer, so each buffer afterwards holds the
  last payload stored into it. Three cases of the two conditions occur on the 8 × 16 grid.
-/
import proofs.«170105_j8323646619735_1_alg».proof.Proof.Gen.Kernel.Launch
import proofs.«170105_j8323646619735_1_alg».proof.Proof.Gen.Kernel.Skeleton
import proofs.«170105_j8323646619735_1_alg».proof.Proof.Gen.Kernel.Points
import proofs.«170105_j8323646619735_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- "This is the first column tile": the body's first conditional, its scalar chain substituted. -/
abbrev condFirst (i : grid1.Coords) : Prop :=
  (Scalar.cmpi .ne (Scalar.extui (Scalar.cmpi .eq (BitVec.ofNat 32 (i 1).val) 0#32)) 0#32) = 1#1
/-- It holds at the points ≡ 0 (mod 16). -/
theorem condFirst_iff : ∀ t : Fin cfg1.N, condFirst (grid1.coords t) ↔ t.val % 16 = 0 :=
  (by decide +kernel : ∀ t : Fin grid1.N, condFirst (grid1.coords t) ↔ t.val % 16 = 0)

/-- "This is the last column tile": the body's second conditional. -/
abbrev condLast (i : grid1.Coords) : Prop := k1_cond2 i = 1#1
/-- It holds at the points ≡ 15 (mod 16). -/
theorem condLast_iff : ∀ t : Fin cfg1.N, condLast (grid1.coords t) ↔ t.val % 16 = 15 :=
  (by decide +kernel : ∀ t : Fin grid1.N, condLast (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Away from the last column tile nothing is stored into the output column's buffer, -/
theorem idle1_5 : ∀ t : Fin cfg1.N, ¬condLast (grid1.coords t) → cfg1.idle 5 (grid1.coords t) = true := by decide +kernel
/-- and its block is not written back there; -/
theorem noFlush1_5 : ∀ t : Fin cfg1.N, ¬condLast (grid1.coords t) → (cfg1.win 5).flush t = false := by decide +kernel
/-- at the last column tile it is stored into. -/
theorem live1_5 : ∀ t : Fin cfg1.N, condLast (grid1.coords t) → cfg1.idle 5 (grid1.coords t) = false := by decide +kernel

/-! ## The body on whole buffers, case by case -/

/-- The rectangle spanning a whole rank-2 buffer starts at the origin. -/
theorem origin2 : (![0, 0] : Fin 2 → Nat) = fun _ => 0 := by funext a; fin_cases a <;> rfl

set_option maxHeartbeats 4000000 in
/-- A middle column tile (neither first nor last): the scratch takes its minimum with the tile's row minima; the
    output column's buffer is not touched. -/
theorem run_mid (c : Dev nD) (E : Set ℕ) (i : grid1.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬condFirst i) (hc1 : ¬condLast i) (x0 : Vec F S1024x128 .bf16) (x1 : Vec F S512x128 .bf16) (x2 : Vec F S1024x1 .i32) (x3 : Vec F S1x512 .i32) (x4 : Vec F S1024x1 .f32) (xo xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (xo)
            ∗ owns (c : Thread nD τ) arg8 fullShare (k1_pay3 x0 x1 x2 x3 xs)) -∗ K ⟨⟩))
      ⊢ wp frame (wpE (defs₀ (F := F)) Variants.none c none) E (cc1__hard_neg_kernel i arg2 harg2 arg3 harg3 arg4 harg4 arg5 harg5 arg6 harg6 arg7 harg7 arg8 harg8) K := by
  simp only [cc1__hard_neg_kernel_eq_skeleton]; unfold cc1__hard_neg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  iexists _; isplitr
  swap; · iexact HS
  ipureintro
  rw [Cert.LibWholeStore.read_writes_whole arg8.view _ (off := ![0, 0]) origin2,
    Cert.LibWholeStore.readAt_unread_whole arg2 harg2 x0 (off := ![0, 0]) origin2, Cert.LibWholeStore.readAt_unread_whole arg3 harg3 x1 (off := ![0, 0]) origin2, Cert.LibWholeStore.readAt_unread_whole arg4 harg4 x2 (off := ![0, 0]) origin2, Cert.LibWholeStore.readAt_unread_whole arg5 harg5 x3 (off := ![0, 0]) origin2, Cert.LibWholeStore.readAt_unread_whole arg8 harg8 xs (off := ![0, 0]) origin2]

set_option maxHeartbeats 4000000 in
/-- The first column tile: the scratch is reset to +∞ first, so it ends at the tile's row minima against +∞,
    whatever it held. -/
theorem run_first (c : Dev nD) (E : Set ℕ) (i : grid1.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : condFirst i) (hc1 : ¬condLast i) (x0 : Vec F S1024x128 .bf16) (x1 : Vec F S512x128 .bf16) (x2 : Vec F S1024x1 .i32) (x3 : Vec F S1x512 .i32) (x4 : Vec F S1024x1 .f32) (xo xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (xo)
            ∗ owns (c : Thread nD τ) arg8 fullShare (k1_pay3 x0 x1 x2 x3 (k1_pay2 (F := F)))) -∗ K ⟨⟩))
      ⊢ wp frame (wpE (defs₀ (F := F)) Variants.none c none) E (cc1__hard_neg_kernel i arg2 harg2 arg3 harg3 arg4 harg4 arg5 harg5 arg6 harg6 arg7 harg7 arg8 harg8) K := by
  simp only [cc1__hard_neg_kernel_eq_skeleton]; unfold cc1__hard_neg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  iexists _; isplitr
  swap; · iexact HS
  ipureintro
  sl_unfold_run_names
  rw [Cert.LibWholeStore.read_writes_whole arg8.view _ (off := ![0, 0]) origin2,
    View.readCov_unit_zero arg8.view (off := ![0, 0]) origin2,
    Cert.LibWholeStore.readAt_unread_whole arg2 harg2 x0 (off := ![0, 0]) origin2, Cert.LibWholeStore.readAt_unread_whole arg3 harg3 x1 (off := ![0, 0]) origin2, Cert.LibWholeStore.readAt_unread_whole arg4 harg4 x2 (off := ![0, 0]) origin2, Cert.LibWholeStore.readAt_unread_whole arg5 harg5 x3 (off := ![0, 0]) origin2]

set_option maxHeartbeats 4000000 in
/-- The last column tile: after the scratch's update the loss column of the final scratch and the distance-to-positive
    block is stored into the output column's buffer. -/
theorem run_last (c : Dev nD) (E : Set ℕ) (i : grid1.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬condFirst i) (hc1 : condLast i) (x0 : Vec F S1024x128 .bf16) (x1 : Vec F S512x128 .bf16) (x2 : Vec F S1024x1 .i32) (x3 : Vec F S1x512 .i32) (x4 : Vec F S1024x1 .f32) (xo xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (k1_pay1 (k1_pay3 x0 x1 x2 x3 xs) (k1_pay3 x0 x1 x2 x3 xs) x4)
            ∗ owns (c : Thread nD τ) arg8 fullShare (k1_pay3 x0 x1 x2 x3 xs)) -∗ K ⟨⟩))
      ⊢ wp frame (wpE (defs₀ (F := F)) Variants.none c none) E (cc1__hard_neg_kernel i arg2 harg2 arg3 harg3 arg4 harg4 arg5 harg5 arg6 harg6 arg7 harg7 arg8 harg8) K := by
  simp only [cc1__hard_neg_kernel_eq_skeleton]; unfold cc1__hard_neg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap; · iexact H5
    ipureintro
    sl_unfold_run_names
    rw [Cert.LibWholeStore.read_writes_whole arg7.view _ (off := ![0, 0]) origin2,
      View.readCov_unit_zero arg8.view (off := ![0, 0]) origin2,
      Cert.LibWholeStore.readAt_unread_whole arg2 harg2 x0 (off := ![0, 0]) origin2, Cert.LibWholeStore.readAt_unread_whole arg3 harg3 x1 (off := ![0, 0]) origin2, Cert.LibWholeStore.readAt_unread_whole arg4 harg4 x2 (off := ![0, 0]) origin2, Cert.LibWholeStore.readAt_unread_whole arg5 harg5 x3 (off := ![0, 0]) origin2, Cert.LibWholeStore.readAt_unread_whole arg8 harg8 xs (off := ![0, 0]) origin2, Cert.LibWholeStore.readAt_unread_whole arg6 harg6 x4 (off := ![0, 0]) origin2]
  iexists _; isplitr
  swap; · iexact HS
  ipureintro
  sl_unfold_run_names
  rw [Cert.LibWholeStore.read_writes_whole arg8.view _ (off := ![0, 0]) origin2,
    Cert.LibWholeStore.readAt_unread_whole arg2 harg2 x0 (off := ![0, 0]) origin2, Cert.LibWholeStore.readAt_unread_whole arg3 harg3 x1 (off := ![0, 0]) origin2, Cert.LibWholeStore.readAt_unread_whole arg4 harg4 x2 (off := ![0, 0]) origin2, Cert.LibWholeStore.readAt_unread_whole arg5 harg5 x3 (off := ![0, 0]) origin2, Cert.LibWholeStore.readAt_unread_whole arg8 harg8 xs (off := ![0, 0]) origin2]

end Cert.Kernel.R1

end
-- ==== Proof.Region1K.lean ====
/-
  The proof data of the second kernel's pipeline: what every buffer holds from grid point to grid point.

  The grid is 8 row blocks × 16 column tiles, visited row block by row block (point n is row block n / 16, tile n % 16).
  The scratch column after point n is the running minimum of that row block's rows over the tiles seen so far:
    scrAt n = minimum-update (blocks at n) (+∞ column)          when n is the first tile of its row block,
    scrAt n = minimum-update (blocks at n) (scrAt (n − 1))        otherwise;
  the output column's buffer is stored only at the last tile of a row block, with the loss column of scrAt n and the
  distance-to-positive block. Between points the pipeline's invariant keeps the scratch at scrAt of the point before;
  the five input windows hold their blocks at every point; the output window is idle away from the last tile.
-/
import proofs.«170105_j8323646619735_1_alg».proof.Proof.Gen.Kernel.Launch
import proofs.«170105_j8323646619735_1_alg».proof.Proof.Gen.Kernel.Skeleton
import proofs.«170105_j8323646619735_1_alg».proof.Proof.Gen.Kernel.Points
import proofs.«170105_j8323646619735_1_alg».proof.Proof.Region1RunK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

-- the buffer contents when the region is entered
variable (V : (c : Dev nD) → (b : Ref sig .tc) → Buf (Elt F) ((c : Thread nD τ).loc b))

/-! ## The windows' blocks and staging buffers -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched its
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at a point, and the scratch column. -/
abbrev ms0 (t : Fin cfg1.N) : Memref sig .tc .vmem S1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x1 .f32 := win1_5.stage (cfg1.slots t 5)
abbrev hs5 (t : Fin cfg1.N) : (ms5 t).IsWhole := hstage1_5 ((cfg1.slots t 5).cast nbuf1_5)
abbrev scM : Memref sig .tc .vmem S1024x1 .f32 := Memref.whole cc1_scratch0

/-! ## The running minimum and the stored loss column -/

/-- The scratch column after the body at position `n`. -/
def scrAt (c : Dev nD) : (n : ℕ) → n < cfg1.N → Vec F S1024x1 .f32
  | 0, hn => k1_pay3 (iblk1 V c 0 ⟨0, hn⟩) (iblk1 V c 1 ⟨0, hn⟩) (iblk1 V c 2 ⟨0, hn⟩) (iblk1 V c 3 ⟨0, hn⟩) (k1_pay2 (F := F))
  | n + 1, hn => k1_pay3 (iblk1 V c 0 ⟨n + 1, hn⟩) (iblk1 V c 1 ⟨n + 1, hn⟩) (iblk1 V c 2 ⟨n + 1, hn⟩) (iblk1 V c 3 ⟨n + 1, hn⟩)
      (if (n + 1) % 16 = 0 then k1_pay2 (F := F) else scrAt c n (Nat.lt_of_succ_lt hn))

/-- At the first tile of a row block the running minimum starts from +∞. -/
theorem scrAt_first (c : Dev nD) (t : Fin cfg1.N) (h : t.val % 16 = 0) :
    scrAt V c t.val t.isLt = k1_pay3 (iblk1 V c 0 t) (iblk1 V c 1 t) (iblk1 V c 2 t) (iblk1 V c 3 t) (k1_pay2 (F := F)) := by
  obtain ⟨n, hn⟩ := t
  cases n with
  | zero => rfl
  | succ n => exact (by rw [scrAt, if_pos h])

/-- At a later tile it continues from the tile before. -/
theorem scrAt_next (c : Dev nD) (t : Fin cfg1.N) (h : ¬t.val % 16 = 0) :
    scrAt V c t.val t.isLt = k1_pay3 (iblk1 V c 0 t) (iblk1 V c 1 t) (iblk1 V c 2 t) (iblk1 V c 3 t) (scrAt V c (t.val - 1) (Nat.lt_of_le_of_lt (Nat.sub_le _ _) t.isLt)) := by
  obtain ⟨n, hn⟩ := t
  cases n with
  | zero => exact absurd (Nat.zero_mod _) h
  | succ n => exact (by rw [scrAt, if_neg h]; rfl)

/-- The loss column stored at position `n` (meaningful at the last tile of a row block). -/
def outAt (c : Dev nD) (n : ℕ) (hn : n < cfg1.N) : Vec F S1024x1 .f32 :=
  k1_pay1 (scrAt V c n hn) (scrAt V c n hn) (iblk1 V c 4 ⟨n, hn⟩)

/-! ## The invariant: the scratch between points -/

/-- The core's other scoped buffers (the first kernel's staging buffers), each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scoped buffers no window stages are those and the scratch column. -/
theorem scoped_split (c : Dev nD) :
    (Pipeline.scopedRest (Ix := Unit) (Name := ℕ) (U := UR sig nD τ) (Lvl := ℕ) (Val := Elt F) spec1 c : sProp 𝕄)
      ⊢ iprop(others (F := F) c ∗ ∃ d, owns (c : Thread nD τ) scM fullShare d) := by
  rw [scopedRest1_eq]; unfold others; simp only [scM, owns_whole]
  iintro ⟨H1, H2, H3, H4, H5, H6, H7, H8, ⟨%f, H9⟩⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexists f; iexact H9

theorem scoped_join (c : Dev nD) :
    iprop(others (F := F) c ∗ ∃ d, owns (c : Thread nD τ) scM fullShare d)
      ⊢ (Pipeline.scopedRest (Ix := Unit) (Name := ℕ) (U := UR sig nD τ) (Lvl := ℕ) (Val := Elt F) spec1 c : sProp 𝕄) := by
  rw [scopedRest1_eq]; unfold others; simp only [scM, owns_whole]
  iintro ⟨⟨H1, H2, H3, H4, H5, H6, H7, H8⟩, ⟨%f, H9⟩⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists f; iexact H9

/-- The invariant before position `n`: before the first point every scoped buffer at anything; afterwards the scratch
    column at what the point before left. -/
def PhiS (c : Dev nD) : (n : ℕ) → n ≤ cfg1.N → sProp 𝕄
  | 0, _ => Pipeline.ΦA spec1 c
  | n + 1, hn => iprop(others (F := F) c ∗ owns (c : Thread nD τ) scM fullShare (scrAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others (F := F) c ∗ owns (c : Thread nD τ) scM fullShare (scrAt V c n hn) ∗ (∃ r, prngReg c r)) := rfl
theorem PhiS_pos (c : Dev nD) (n : ℕ) (h : n ≤ cfg1.N) (hz : n ≠ 0) :
    PhiS V c n h = iprop(others (F := F) c ∗ owns (c : Thread nD τ) scM fullShare (scrAt V c (n - 1) (by omega)) ∗ (∃ r, prngReg c r)) := by
  cases n with
  | zero => exact absurd rfl hz
  | succ n => rfl

/-! ## The proof data -/

/-- The arrays as the region finds them; after the body each input's buffer at its block and the output's at the stored
    loss column; the invariant above; the scaled-anchor array, read through two windows, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS V c t.val (Nat.le_of_lt_succ t.isLt)
  q w := match w with
    | ⟨0, _⟩ => (fullShare : PosShare TreeShare).left
    | ⟨1, _⟩ => (fullShare : PosShare TreeShare).right
    | _ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the closed forms of the two conditions say which case the point is in; the invariant hands
    the body the scratch at what the point before left (anything before the very first point) and takes it back at this
    point's running minimum; the output window is handed back as found away from the last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live1_0 t], after1_0]
  rw [show (dat1 V c).leavesExact 1 t = owns (c : Thread nD τ) (ms1 t) fullShare ((dat1 V c).after 1 t) from by
    unfold Dat.leavesExact; rw [live1_1 t], after1_1]
  rw [show (dat1 V c).leavesExact 2 t = owns (c : Thread nD τ) (ms2 t) fullShare ((dat1 V c).after 2 t) from by
    unfold Dat.leavesExact; rw [live1_2 t], after1_2]
  rw [show (dat1 V c).leavesExact 3 t = owns (c : Thread nD τ) (ms3 t) fullShare ((dat1 V c).after 3 t) from by
    unfold Dat.leavesExact; rw [live1_3 t], after1_3]
  rw [show (dat1 V c).leavesExact 4 t = owns (c : Thread nD τ) (ms4 t) fullShare ((dat1 V c).after 4 t) from by
    unfold Dat.leavesExact; rw [live1_4 t], after1_4]
  have hN : t.val < 128 := lt_of_lt_of_eq t.isLt N_1
  by_cases h0 : t.val % 16 = 0
  · -- the first tile of a row block
    have hc0 : condFirst (grid1.coords t) := (condFirst_iff t).mpr h0
    have hc1 : ¬condLast (grid1.coords t) := fun h => by have := (condLast_iff t).mp h; omega
    rw [Dat.leavesExact_idle (dat1 V c) 5 t (idle1_5 t hc1) (noFlush1_5 t hc1), scrAt_first V c t h0]
    by_cases hz : t.val = 0
    · rw [PhiS_castSucc V c t, PhiS_zero V c _ _ hz]; unfold Pipeline.ΦA
      iintro ⟨⟨Hsc, Hg⟩, Ho, ⟨%d0, H0⟩, ⟨%d1, H1⟩, ⟨%d2, H2⟩, ⟨%d3, H3⟩, ⟨%d4, H4⟩, ⟨%d5, H5⟩⟩
      ihave Hsp := (scoped_split (F := F) c) $$ Hsc
      icases Hsp with ⟨Hr, ⟨%ds, HS⟩⟩
      iapply (run_first c Set.univ (grid1.coords t) (ms0 t) (hs0 t) (ms1 t) (hs1 t) (ms2 t) (hs2 t) (ms3 t) (hs3 t) (ms4 t) (hs4 t) (ms5 t) (hs5 t) scM (Memref.isWhole_whole _) hc0 hc1 (iblk1 V c 0 t) (iblk1 V c 1 t) (iblk1 V c 2 t) (iblk1 V c 3 t) (iblk1 V c 4 t) ((dat1 V c).before 5 t d5) ds _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS_castSucc V c t, PhiS_pos V c _ _ hz]
      iintro ⟨⟨Hr, HS, Hg⟩, Ho, ⟨%d0, H0⟩, ⟨%d1, H1⟩, ⟨%d2, H2⟩, ⟨%d3, H3⟩, ⟨%d4, H4⟩, ⟨%d5, H5⟩⟩
      iapply (run_first c Set.univ (grid1.coords t) (ms0 t) (hs0 t) (ms1 t) (hs1 t) (ms2 t) (hs2 t) (ms3 t) (hs3 t) (ms4 t) (hs4 t) (ms5 t) (hs5 t) scM (Memref.isWhole_whole _) hc0 hc1 (iblk1 V c 0 t) (iblk1 V c 1 t) (iblk1 V c 2 t) (iblk1 V c 3 t) (iblk1 V c 4 t) ((dat1 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun e => h0 (by rw [e])
    have hc0 : ¬condFirst (grid1.coords t) := fun h => h0 ((condFirst_iff t).mp h)
    rw [PhiS_castSucc V c t, PhiS_pos V c _ _ hz]
    by_cases h1 : t.val % 16 = 15
    · -- the last tile: the loss column is stored
      have hc1 : condLast (grid1.coords t) := (condLast_iff t).mpr h1
      rw [show (dat1 V c).leavesExact 5 t = owns (c : Thread nD τ) (ms5 t) fullShare ((dat1 V c).after 5 t) from by
        unfold Dat.leavesExact; rw [live1_5 t hc1], after1_5]
      unfold outAt
      rw [scrAt_next V c t h0]
      iintro ⟨⟨Hr, HS, Hg⟩, Ho, ⟨%d0, H0⟩, ⟨%d1, H1⟩, ⟨%d2, H2⟩, ⟨%d3, H3⟩, ⟨%d4, H4⟩, ⟨%d5, H5⟩⟩
      iapply (run_last c Set.univ (grid1.coords t) (ms0 t) (hs0 t) (ms1 t) (hs1 t) (ms2 t) (hs2 t) (ms3 t) (hs3 t) (ms4 t) (hs4 t) (ms5 t) (hs5 t) scM (Memref.isWhole_whole _) hc0 hc1 (iblk1 V c 0 t) (iblk1 V c 1 t) (iblk1 V c 2 t) (iblk1 V c 3 t) (iblk1 V c 4 t) ((dat1 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle tile
      have hc1 : ¬condLast (grid1.coords t) := fun h => h1 ((condLast_iff t).mp h)
      rw [Dat.leavesExact_idle (dat1 V c) 5 t (idle1_5 t hc1) (noFlush1_5 t hc1), scrAt_next V c t h0]
      iintro ⟨⟨Hr, HS, Hg⟩, Ho, ⟨%d0, H0⟩, ⟨%d1, H1⟩, ⟨%d2, H2⟩, ⟨%d3, H3⟩, ⟨%d4, H4⟩, ⟨%d5, H5⟩⟩
      iapply (run_mid c Set.univ (grid1.coords t) (ms0 t) (hs0 t) (ms1 t) (hs1 t) (ms2 t) (hs2 t) (ms3 t) (hs3 t) (ms4 t) (hs4 t) (ms5 t) (hs5 t) scM (Memref.isWhole_whole _) hc0 hc1 (iblk1 V c 0 t) (iblk1 V c 1 t) (iblk1 V c 2 t) (iblk1 V c 3 t) (iblk1 V c 4 t) ((dat1 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  unfold Pipeline.ΦA
  iintro ⟨Hr, HS, Hg⟩
  isplitl [Hr HS]
  · iapply (scoped_join (F := F) c)
    isplitl [Hr]; · iexact Hr
    iexists _; iexact HS
  iexact Hg

end Data

end Cert.Kernel.R1

end
-- ==== Proof.RunK.lean ====
/-
  The whole program as a run of four segments, at any float algebra.

  @main is: the normalising kernel (region 0); two reshapes of the labels; the hard-negative kernel (region 1); a
  constant, a sum, a constant and a division. Between two segments a core holds every unscoped buffer whole, at a
  valuation that is a fold from the launch memory:
    W0  the launch memory;
    W1  W0 with region 0's arrays at what its write-backs leave;
    W2  W1 after the two reshapes;
    W3  W2 with the loss column at what region 1's write-backs leave (region 1 writes nothing else);
    W4  W3 after the four closing operations.
  Region 1 reads the scaled-anchor array through two windows, so on entry that buffer's full share is split in two
  halves, one per window, and joined again on exit; every other array of either region is held whole by one window.
  The run's post reads every unscoped buffer of the final memory at W4; the three argument arrays are written by
  no segment, so W4 has them as launched.
-/
import proofs.«170105_j8323646619735_1_alg».proof.Proof.Gen.Kernel.Launch
import proofs.«170105_j8323646619735_1_alg».proof.Proof.Gen.Kernel.Points
import proofs.«170105_j8323646619735_1_alg».proof.Proof.Gen.Kernel.Regions
import proofs.«170105_j8323646619735_1_alg».proof.Proof.Region0K
import proofs.«170105_j8323646619735_1_alg».proof.Proof.Region1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RunK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b
/-- After region 0: its arrays at what the pipeline leaves (the two inputs as entered, each output's write-backs
    folded), every other buffer as entered. -/
def W1 (c : Dev nD) : Valuation τ sig (Elt F) :=
  Pipeline.withArrays spec0 c (W0 m c) fun w => (R0.dat0 (V0 m) c).arrAt w cfg0.N
theorem W1_arr (c : Dev nD) (w : Fin cfg0.W) :
    W1 m c (Proc.devRef .tc (Pipeline.arrRef spec0 w)) = (R0.dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m c b
theorem hF0 (c : Dev nD) (w : Fin cfg0.W) : (R0.dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes of the labels (region 1's entry). -/
abbrev W2 : Dev nD → Valuation τ sig (Elt F) := fun c => StableHlo.after hostOps1 (W1 m c)
/-- The same read at the TensorCore's references (what region 1's proof data take). -/
abbrev V2 : (c : Dev nD) → (b : Ref sig .tc) → Buf (Elt F) ((c : Thread nD τ).loc b) := fun c b => W2 m c b
/-- After region 1: the loss column at what its write-backs leave, every other buffer as entered. -/
def W3 (c : Dev nD) : Valuation τ sig (Elt F) :=
  Function.update (W2 m c) (Proc.devRef .tc main_v3) ((R1.dat1 (V2 m) c).arrAt 5 cfg1.N)
theorem W3_out (c : Dev nD) : W3 m c (Proc.devRef .tc main_v3) = (R1.dat1 (V2 m) c).arrAt 5 cfg1.N := by
  unfold W3; exact Function.update_self _ _ _
theorem W3_of_ne (c : Dev nD) (b : Ref sig .tc) (hb : b ≠ main_v3) :
    W3 m c (Proc.devRef .tc b) = W2 m c (Proc.devRef .tc b) := by
  unfold W3; exact Function.update_of_ne (StableHlo.devRef_ne_of_ne hb) _ _
/-- The same read at the TensorCore's references (region 1's exit contents). -/
abbrev V3 : (c : Dev nD) → (b : Ref sig .tc) → Buf (Elt F) ((c : Thread nD τ).loc b) := fun c b => W3 m c b
/-- After the four closing operations: the end. -/
abbrev W4 : Dev nD → Valuation τ sig (Elt F) := fun c => StableHlo.after hostOps2 (W3 m c)

/-! ## The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((R0.dat0 (V0 m) c).arrAt_in 0 rfl _).trans (R0.A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 1).trans (((R0.dat0 (V0 m) c).arrAt_in 1 rfl _).trans (R0.A_eq0 (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V0 m) c
  | ⟨1, _⟩ => fun c => R1.dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment: over the unscoped references from the contents W, R riding along; it leaves
    those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at
    some state. -/
abbrev Tₙ (c : Dev nD) : sProp 𝕄 := iprop(StableHlo.held (c : Thread nD τ) (Pipeline.ucRefs τ sig) (W4 m c) ∗ ∃ r, prngReg c r)

/-! ## Region 0 as a segment -/

set_option backward.isDefEq.respectTransparency.types false in
/-- Region 0 over the thread state: entered from every unscoped buffer at W0, left at W1. Its four arrays are split
    out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: five buffers behind six windows -/

section SharedArray

variable (V : (c : Dev nD) → (b : Ref sig .tc) → Buf (Elt F) ((c : Thread nD τ).loc b))

/-- The shares region 1's proof data hold the arrays at: the scaled-anchor array in two halves, one per window on
    it; every other array whole. -/
theorem share1 (c : Dev nD) : (R1.dat1 V c).share 0 = (fullShare : PosShare TreeShare).left
    ∧ (R1.dat1 V c).share 1 = (fullShare : PosShare TreeShare).right
    ∧ (R1.dat1 V c).share 2 = fullShare ∧ (R1.dat1 V c).share 3 = fullShare
    ∧ (R1.dat1 V c).share 4 = fullShare ∧ (R1.dat1 V c).share 5 = fullShare :=
  ⟨rfl, rfl, rfl, rfl, rfl, rfl⟩

/-- Region 1's arrays, window by window, each a whole buffer at its share. -/
theorem arrays1_eq (c : Dev nD) (Fn : (w : Fin cfg1.W) → Buf (Elt F) ((cfg1.win w).arr.view.loc (c : Thread nD τ))) :
    ((R1.dat1 V c).arrays Fn : sProp 𝕄) = iprop(
      (((c : Thread nD τ).loc main_v0_0) ↦{(fullShare : PosShare TreeShare).left} Fn 0)
      ∗ (((c : Thread nD τ).loc main_v0_0) ↦{(fullShare : PosShare TreeShare).right} Fn 1)
      ∗ (((c : Thread nD τ).loc main_v1) ↦{fullShare} Fn 2)
      ∗ (((c : Thread nD τ).loc main_v2) ↦{fullShare} Fn 3)
      ∗ (((c : Thread nD τ).loc main_v0_1) ↦{fullShare} Fn 4)
      ∗ (((c : Thread nD τ).loc main_v3) ↦{fullShare} Fn 5)) := by
  have hw : ((R1.dat1 V c).arrays Fn : sProp 𝕄)
      = bigSep Finset.univ fun w : Fin cfg1.W => (((c : Thread nD τ).loc (Pipeline.arrRef spec1 w)) ↦{(R1.dat1 V c).share w} Fn w : sProp 𝕄) := by
    unfold Pipeline.Dat.arrays
    exact bigSep_congr fun w _ => by rw [(arr_whole1 w).set_eq_univ]
  obtain ⟨s0, s1, s2, s3, s4, s5⟩ := share1 V c
  rw [hw, bigSep_W1, s0, s1, s2, s3, s4, s5]

end SharedArray

section SharedArray2

/-- The five distinct buffers behind region 1's arrays, listed. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0_0) ↦{fullShare} Vc main_v0_0)
        ∗ (((c : Thread nD τ).loc main_v1) ↦{fullShare} Vc main_v1)
        ∗ (((c : Thread nD τ).loc main_v2) ↦{fullShare} Vc main_v2)
        ∗ (((c : Thread nD τ).loc main_v0_1) ↦{fullShare} Vc main_v0_1)
        ∗ (((c : Thread nD τ).loc main_v3) ↦{fullShare} Vc main_v3)) := by
  unfold Pipeline.arrBufs
  exact bigSep_eq_bigSepL_of_eq [main_v0_0, main_v1, main_v2, main_v0_1, main_v3] (by decide) (by decide) _

variable (V : (c : Dev nD) → (b : Ref sig .tc) → Buf (Elt F) ((c : Thread nD τ).loc b))

/-- ENTRY: the five buffers, each whole at the entry contents, make the six windows' arrays at entry: the
    scaled-anchor buffer's full share is split into the two halves its two windows hold. -/
theorem arrays1_of_bufs (c : Dev nD) :
    (Pipeline.arrBufs (Ix := Unit) (Name := ℕ) (U := UR sig nD τ) (Lvl := ℕ) spec1 c (V c) : sProp 𝕄)
      ⊢ (R1.dat1 V c).arrays ((R1.dat1 V c).arrAt · 0) := by
  rw [arrBufs1_eq, arrays1_eq]
  show _ ⊢ iprop(
      (((c : Thread nD τ).loc main_v0_0) ↦{(fullShare : PosShare TreeShare).left} V c main_v0_0)
      ∗ (((c : Thread nD τ).loc main_v0_0) ↦{(fullShare : PosShare TreeShare).right} V c main_v0_0)
      ∗ (((c : Thread nD τ).loc main_v1) ↦{fullShare} V c main_v1)
      ∗ (((c : Thread nD τ).loc main_v2) ↦{fullShare} V c main_v2)
      ∗ (((c : Thread nD τ).loc main_v0_1) ↦{fullShare} V c main_v0_1)
      ∗ (((c : Thread nD τ).loc main_v3) ↦{fullShare} V c main_v3))
  iintro ⟨H0, H1, H2, H3, H4⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  iexact H4

/-- EXIT: the six windows' arrays after the region — the five input windows' as entered, the two halves of the
    scaled-anchor buffer at the same contents, the loss column at what the write-backs leave — are the five buffers,
    each whole, at any valuation that has the loss column there and agrees with the entry contents elsewhere. -/
theorem bufs_of_arrays1 (c : Dev nD) (V' : (b : Ref sig .tc) → Buf (Elt F) ((c : Thread nD τ).loc b))
    (hout : V' main_v3 = (R1.dat1 V c).arrAt 5 cfg1.N) (hsame : ∀ b, b ≠ main_v3 → V' b = V c b) :
    ((R1.dat1 V c).arrays ((R1.dat1 V c).arrAt · cfg1.N) : sProp 𝕄)
      ⊢ Pipeline.arrBufs (Ix := Unit) (Name := ℕ) (U := UR sig nD τ) (Lvl := ℕ) spec1 c V' := by
  have h0 : (R1.dat1 V c).arrAt 0 cfg1.N = V c main_v0_0 := ((R1.dat1 V c).arrAt_in 0 rfl _).trans (R1.A_eq1 V c 0)
  have h1 : (R1.dat1 V c).arrAt 1 cfg1.N = V c main_v0_0 := ((R1.dat1 V c).arrAt_in 1 rfl _).trans (R1.A_eq1 V c 1)
  have h2 : (R1.dat1 V c).arrAt 2 cfg1.N = V c main_v1 := ((R1.dat1 V c).arrAt_in 2 rfl _).trans (R1.A_eq1 V c 2)
  have h3 : (R1.dat1 V c).arrAt 3 cfg1.N = V c main_v2 := ((R1.dat1 V c).arrAt_in 3 rfl _).trans (R1.A_eq1 V c 3)
  have h4 : (R1.dat1 V c).arrAt 4 cfg1.N = V c main_v0_1 := ((R1.dat1 V c).arrAt_in 4 rfl _).trans (R1.A_eq1 V c 4)
  rw [arrBufs1_eq, arrays1_eq, hout, hsame main_v0_0 (by decide), hsame main_v1 (by decide), hsame main_v2 (by decide),
    hsame main_v0_1 (by decide)]
  rw [h0, h1, h2, h3, h4]
  iintro ⟨Hl, Hr, H1, H2, H3, H4⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact H4

end SharedArray2

/-- Region 1's entry: every unscoped buffer at W2 is its six windows' arrays at entry beside the unscoped buffers
    that are no array of its. -/
theorem entry1 (c : Dev nD) :
    (StableHlo.held (c : Thread nD τ) (Pipeline.ucRefs τ sig) (W2 m c) : sProp 𝕄)
      ⊢ iprop((R1.dat1 (V2 m) c).arrays ((R1.dat1 (V2 m) c).arrAt · 0)
          ∗ Pipeline.unscopedRest (Ix := Unit) (Name := ℕ) (U := UR sig nD τ) (Lvl := ℕ) spec1 c (V2 m c)) := by
  rw [← Pipeline.unscopedBufs_held (Ix := Unit) (Name := ℕ) (U := UR sig nD τ) (Lvl := ℕ) c (W2 m c),
    Pipeline.unscopedBufs_split₀ cfgs 1 winFacts₀1.arr_unscoped c (V2 m c)]
  exact sep_mono (arrays1_of_bufs (V2 m) c) .rfl

/-- Region 1's exit: its arrays after the region and the bypassing buffers are every unscoped buffer at W3. -/
theorem exit1 (c : Dev nD) :
    iprop((R1.dat1 (V2 m) c).arrays ((R1.dat1 (V2 m) c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    Pipeline.unscopedBufs_split₀ cfgs 1 winFacts₀1.arr_unscoped c (V3 m c)]
  refine sep_mono (bufs_of_arrays1 (V2 m) c (V3 m c) (W3_out m c) (fun b hb => W3_of_ne m c b hb)) (Entails.of_eq ?_)
  unfold Pipeline.unscopedRest
  refine bigSep_congr fun b hb => ?_
  have hne : b ≠ main_v3 := fun e => (Finset.mem_sdiff.mp hb).2 (Finset.mem_image.mpr ⟨5, Finset.mem_univ _, e.symm⟩)
  rw [show V3 m c b = V2 m c b from W3_of_ne m c b hne]

/-! ## Region 1 as a segment -/

set_option backward.isDefEq.respectTransparency.types false in
/-- Region 1 over the thread state: entered from every unscoped buffer at W2, left at W3. Its arrays are split out
    of the unscoped buffers, the shared one in halves, and put back with the loss column at what the write-backs
    leave; the generator register goes into the region's invariant and comes out; nothing is owed; the kernel has
    no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin1 (V2 m) c)
    unfold Pipeline.ΦA
    iintro ⟨Hp, -, Hr⟩
    isplitl [Hr]; · iexact Hr
    iexact Hp
  hout c := by
    rw [Pipeline.ownSems0_none]
    refine BIBase.Entails.trans (R1.hout1 (V2 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final memory has every unscoped buffer at the last boundary's
    contents W4. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.RunK

end
-- ==== Proof.Region0.lean ====
/-
  The first pallas_call (the normalising kernel) as a pipeline region, at any float algebra.

  The region runs on a grid of 8 points. At point t it stages rows 1024·t … 1024·t + 1023 of the anchor array (window 0)
  and of the positive array (window 1), and writes back the same rows of the scaled anchor array (window 2) and of
  the squared-distance column (window 3). Everything below is stated at a parameter V: the buffer contents when the
  region is entered.

  What the body leaves in an output's staging buffer is one whole-buffer store, so it is the stored payload: the
  scaled anchor block for window 2 (a function of the anchor block only), the row sums of the squared difference
  of the two scaled blocks for window 3. The body also reads each output buffer once before it stores to it; the
  value read is not used, so the outputs are held at any contents on entry.
-/
import proofs.«170105_j8323646619735_1_alg».proof.Proof.Gen.KernelIdeal.Launch
import proofs.«170105_j8323646619735_1_alg».proof.Proof.Gen.KernelIdeal.Skeleton
import proofs.«170105_j8323646619735_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t: the rows 1024·t … 1024·t + 1023 of its array, as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The anchor window's staging buffer holds the anchor block at every point, for any proof data whose array is
    the entry contents and whose body leaves the block in place: an input window is refetched at every point
    and the body does not write to it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the positive window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole staging buffer -/

abbrev rA : Rect S1024x128 := Rect.unit (s := S1024x128) ![0, 0] S1024x128.size inb_S1024x128_S1024x128_0_0
abbrev rC : Rect S1024x1 := Rect.unit (s := S1024x1) ![0, 0] S1024x1.size inb_S1024x1_S1024x1_0_0

/-! ## What the body leaves in each output window's buffer -/

/-- The scaled-anchor buffer after the body: the scaled anchor block (in the narrower format), from the anchor block. -/
def out0_2 (x0 : Vec F S1024x128 .f32) : Vec F S1024x128 .bf16 :=
  View.canon [⟨rA, k0_pay3 (View.ld x0 rA)⟩]

/-- The distance-column buffer after the body: per row the sum of squares of the difference of the two scaled
    blocks, from the anchor block and the positive block. -/
def out0_3 (x0 : Vec F S1024x128 .f32) (x1 : Vec F S1024x128 .f32) : Vec F S1024x1 .f32 :=
  View.canon [⟨rC, k0_pay2 (View.ld x0 rA) (View.ld x1 rA)⟩]

/-- One whole-buffer store covers the buffer. -/
theorem cover0_2 (p0 : Vec F S1024x128 .bf16) (y : S1024x128.Idx) :
    ∃ pc ∈ ([⟨rA, p0⟩] : List (View.Piece (Elt F) S1024x128 .bf16)), y ∈ pc.1.set :=
  View.cover_of_tiled [⟨rA, p0⟩] S1024x128.size (by rfl) y

theorem cover0_3 (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

/-! ## The body's triple -/

set_option maxHeartbeats 1000000 in
/-- The kernel body on whole staging memrefs, the inputs' at contents x0, x1 and the outputs' at anything, runs to
    the continuation holding the inputs' as they were and each output's at its stored payload. -/
theorem sound_kernel0 (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .bf16) (harg3 : arg3.IsWhole) (arg4 : Memref sig .tc .vmem S1024x1 .f32) (harg4 : arg4.IsWhole)
    (x0 : Vec F S1024x128 .f32) (x1 : Vec F S1024x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of the region on core c: the arrays as the region finds them; after the body at point t each
    input's buffer at its block and each output's at its payload of the input blocks; the invariant holds the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Region1Run.lean ====
/-
  The second kernel (the nearest-other-label search) at one grid point (i, k), on whole staging buffers.

  The running minimum lives in a scratch column that is carried from one column tile to the next. At a point the body
    · resets the scratch to +∞ when k = 0,
    · replaces it by its minimum with this tile's row minima (the payload named k1_pay3 of the five loaded blocks
      and the scratch),
    · and, when k = 15, stores the loss column max(posd − s² + ½, 0) of the final scratch s (the payload k1_pay1).
  Every load and store goes through the rectangle spanning the whole buffer, so each buffer afterwards holds the
  last payload stored into it. Three cases of the two conditions occur on the 8 × 16 grid.
-/
import proofs.«170105_j8323646619735_1_alg».proof.Proof.Gen.KernelIdeal.Launch
import proofs.«170105_j8323646619735_1_alg».proof.Proof.Gen.KernelIdeal.Skeleton
import proofs.«170105_j8323646619735_1_alg».proof.Proof.Gen.KernelIdeal.Points
import proofs.«170105_j8323646619735_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- "This is the first column tile": the body's first conditional, its scalar chain substituted. -/
abbrev condFirst (i : grid1.Coords) : Prop :=
  (Scalar.cmpi .ne (Scalar.extui (Scalar.cmpi .eq (BitVec.ofNat 32 (i 1).val) 0#32)) 0#32) = 1#1
/-- It holds at the points ≡ 0 (mod 16). -/
theorem condFirst_iff : ∀ t : Fin cfg1.N, condFirst (grid1.coords t) ↔ t.val % 16 = 0 :=
  (by decide +kernel : ∀ t : Fin grid1.N, condFirst (grid1.coords t) ↔ t.val % 16 = 0)

/-- "This is the last column tile": the body's second conditional. -/
abbrev condLast (i : grid1.Coords) : Prop := k1_cond2 i = 1#1
/-- It holds at the points ≡ 15 (mod 16). -/
theorem condLast_iff : ∀ t : Fin cfg1.N, condLast (grid1.coords t) ↔ t.val % 16 = 15 :=
  (by decide +kernel : ∀ t : Fin grid1.N, condLast (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Away from the last column tile nothing is stored into the output column's buffer, -/
theorem idle1_5 : ∀ t : Fin cfg1.N, ¬condLast (grid1.coords t) → cfg1.idle 5 (grid1.coords t) = true := by decide +kernel
/-- and its block is not written back there; -/
theorem noFlush1_5 : ∀ t : Fin cfg1.N, ¬condLast (grid1.coords t) → (cfg1.win 5).flush t = false := by decide +kernel
/-- at the last column tile it is stored into. -/
theorem live1_5 : ∀ t : Fin cfg1.N, condLast (grid1.coords t) → cfg1.idle 5 (grid1.coords t) = false := by decide +kernel

/-! ## The body on whole buffers, case by case -/

/-- The rectangle spanning a whole rank-2 buffer starts at the origin. -/
theorem origin2 : (![0, 0] : Fin 2 → Nat) = fun _ => 0 := by funext a; fin_cases a <;> rfl

set_option maxHeartbeats 4000000 in
/-- A middle column tile (neither first nor last): the scratch takes its minimum with the tile's row minima; the
    output column's buffer is not touched. -/
theorem run_mid (c : Dev nD) (E : Set ℕ) (i : grid1.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬condFirst i) (hc1 : ¬condLast i) (x0 : Vec F S1024x128 .bf16) (x1 : Vec F S512x128 .bf16) (x2 : Vec F S1024x1 .i32) (x3 : Vec F S1x512 .i32) (x4 : Vec F S1024x1 .f32) (xo xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (xo)
            ∗ owns (c : Thread nD τ) arg8 fullShare (k1_pay3 x0 x1 x2 x3 xs)) -∗ K ⟨⟩))
      ⊢ wp frame (wpE (defs₀ (F := F)) Variants.none c none) E (cc1__hard_neg_kernel i arg2 harg2 arg3 harg3 arg4 harg4 arg5 harg5 arg6 harg6 arg7 harg7 arg8 harg8) K := by
  simp only [cc1__hard_neg_kernel_eq_skeleton]; unfold cc1__hard_neg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  iexists _; isplitr
  swap; · iexact HS
  ipureintro
  rw [Cert.LibWholeStore.read_writes_whole arg8.view _ (off := ![0, 0]) origin2,
    Cert.LibWholeStore.readAt_unread_whole arg2 harg2 x0 (off := ![0, 0]) origin2, Cert.LibWholeStore.readAt_unread_whole arg3 harg3 x1 (off := ![0, 0]) origin2, Cert.LibWholeStore.readAt_unread_whole arg4 harg4 x2 (off := ![0, 0]) origin2, Cert.LibWholeStore.readAt_unread_whole arg5 harg5 x3 (off := ![0, 0]) origin2, Cert.LibWholeStore.readAt_unread_whole arg8 harg8 xs (off := ![0, 0]) origin2]

set_option maxHeartbeats 4000000 in
/-- The first column tile: the scratch is reset to +∞ first, so it ends at the tile's row minima against +∞,
    whatever it held. -/
theorem run_first (c : Dev nD) (E : Set ℕ) (i : grid1.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : condFirst i) (hc1 : ¬condLast i) (x0 : Vec F S1024x128 .bf16) (x1 : Vec F S512x128 .bf16) (x2 : Vec F S1024x1 .i32) (x3 : Vec F S1x512 .i32) (x4 : Vec F S1024x1 .f32) (xo xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (xo)
            ∗ owns (c : Thread nD τ) arg8 fullShare (k1_pay3 x0 x1 x2 x3 (k1_pay2 (F := F)))) -∗ K ⟨⟩))
      ⊢ wp frame (wpE (defs₀ (F := F)) Variants.none c none) E (cc1__hard_neg_kernel i arg2 harg2 arg3 harg3 arg4 harg4 arg5 harg5 arg6 harg6 arg7 harg7 arg8 harg8) K := by
  simp only [cc1__hard_neg_kernel_eq_skeleton]; unfold cc1__hard_neg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  iexists _; isplitr
  swap; · iexact HS
  ipureintro
  sl_unfold_run_names
  rw [Cert.LibWholeStore.read_writes_whole arg8.view _ (off := ![0, 0]) origin2,
    View.readCov_unit_zero arg8.view (off := ![0, 0]) origin2,
    Cert.LibWholeStore.readAt_unread_whole arg2 harg2 x0 (off := ![0, 0]) origin2, Cert.LibWholeStore.readAt_unread_whole arg3 harg3 x1 (off := ![0, 0]) origin2, Cert.LibWholeStore.readAt_unread_whole arg4 harg4 x2 (off := ![0, 0]) origin2, Cert.LibWholeStore.readAt_unread_whole arg5 harg5 x3 (off := ![0, 0]) origin2]

set_option maxHeartbeats 4000000 in
/-- The last column tile: after the scratch's update the loss column of the final scratch and the distance-to-positive
    block is stored into the output column's buffer. -/
theorem run_last (c : Dev nD) (E : Set ℕ) (i : grid1.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬condFirst i) (hc1 : condLast i) (x0 : Vec F S1024x128 .bf16) (x1 : Vec F S512x128 .bf16) (x2 : Vec F S1024x1 .i32) (x3 : Vec F S1x512 .i32) (x4 : Vec F S1024x1 .f32) (xo xs : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (k1_pay1 (k1_pay3 x0 x1 x2 x3 xs) (k1_pay3 x0 x1 x2 x3 xs) x4)
            ∗ owns (c : Thread nD τ) arg8 fullShare (k1_pay3 x0 x1 x2 x3 xs)) -∗ K ⟨⟩))
      ⊢ wp frame (wpE (defs₀ (F := F)) Variants.none c none) E (cc1__hard_neg_kernel i arg2 harg2 arg3 harg3 arg4 harg4 arg5 harg5 arg6 harg6 arg7 harg7 arg8 harg8) K := by
  simp only [cc1__hard_neg_kernel_eq_skeleton]; unfold cc1__hard_neg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap; · iexact H5
    ipureintro
    sl_unfold_run_names
    rw [Cert.LibWholeStore.read_writes_whole arg7.view _ (off := ![0, 0]) origin2,
      View.readCov_unit_zero arg8.view (off := ![0, 0]) origin2,
      Cert.LibWholeStore.readAt_unread_whole arg2 harg2 x0 (off := ![0, 0]) origin2, Cert.LibWholeStore.readAt_unread_whole arg3 harg3 x1 (off := ![0, 0]) origin2, Cert.LibWholeStore.readAt_unread_whole arg4 harg4 x2 (off := ![0, 0]) origin2, Cert.LibWholeStore.readAt_unread_whole arg5 harg5 x3 (off := ![0, 0]) origin2, Cert.LibWholeStore.readAt_unread_whole arg8 harg8 xs (off := ![0, 0]) origin2, Cert.LibWholeStore.readAt_unread_whole arg6 harg6 x4 (off := ![0, 0]) origin2]
  iexists _; isplitr
  swap; · iexact HS
  ipureintro
  sl_unfold_run_names
  rw [Cert.LibWholeStore.read_writes_whole arg8.view _ (off := ![0, 0]) origin2,
    Cert.LibWholeStore.readAt_unread_whole arg2 harg2 x0 (off := ![0, 0]) origin2, Cert.LibWholeStore.readAt_unread_whole arg3 harg3 x1 (off := ![0, 0]) origin2, Cert.LibWholeStore.readAt_unread_whole arg4 harg4 x2 (off := ![0, 0]) origin2, Cert.LibWholeStore.readAt_unread_whole arg5 harg5 x3 (off := ![0, 0]) origin2, Cert.LibWholeStore.readAt_unread_whole arg8 harg8 xs (off := ![0, 0]) origin2]

end Cert.KernelIdeal.R1

end
-- ==== Proof.Region1.lean ====
/-
  The proof data of the second kernel's pipeline: what every buffer holds from grid point to grid point.

  The grid is 8 row blocks × 16 column tiles, visited row block by row block (point n is row block n / 16, tile n % 16).
  The scratch column after point n is the running minimum of that row block's rows over the tiles seen so far:
    scrAt n = minimum-update (blocks at n) (+∞ column)          when n is the first tile of its row block,
    scrAt n = minimum-update (blocks at n) (scrAt (n − 1))        otherwise;
  the output column's buffer is stored only at the last tile of a row block, with the loss column of scrAt n and the
  distance-to-positive block. Between points the pipeline's invariant keeps the scratch at scrAt of the point before;
  the five input windows hold their blocks at every point; the output window is idle away from the last tile.
-/
import proofs.«170105_j8323646619735_1_alg».proof.Proof.Gen.KernelIdeal.Launch
import proofs.«170105_j8323646619735_1_alg».proof.Proof.Gen.KernelIdeal.Skeleton
import proofs.«170105_j8323646619735_1_alg».proof.Proof.Gen.KernelIdeal.Points
import proofs.«170105_j8323646619735_1_alg».proof.Proof.Region1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

-- the buffer contents when the region is entered
variable (V : (c : Dev nD) → (b : Ref sig .tc) → Buf (Elt F) ((c : Thread nD τ).loc b))

/-! ## The windows' blocks and staging buffers -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched its
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at a point, and the scratch column. -/
abbrev ms0 (t : Fin cfg1.N) : Memref sig .tc .vmem S1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x1 .f32 := win1_5.stage (cfg1.slots t 5)
abbrev hs5 (t : Fin cfg1.N) : (ms5 t).IsWhole := hstage1_5 ((cfg1.slots t 5).cast nbuf1_5)
abbrev scM : Memref sig .tc .vmem S1024x1 .f32 := Memref.whole cc1_scratch0

/-! ## The running minimum and the stored loss column -/

/-- The scratch column after the body at position `n`. -/
def scrAt (c : Dev nD) : (n : ℕ) → n < cfg1.N → Vec F S1024x1 .f32
  | 0, hn => k1_pay3 (iblk1 V c 0 ⟨0, hn⟩) (iblk1 V c 1 ⟨0, hn⟩) (iblk1 V c 2 ⟨0, hn⟩) (iblk1 V c 3 ⟨0, hn⟩) (k1_pay2 (F := F))
  | n + 1, hn => k1_pay3 (iblk1 V c 0 ⟨n + 1, hn⟩) (iblk1 V c 1 ⟨n + 1, hn⟩) (iblk1 V c 2 ⟨n + 1, hn⟩) (iblk1 V c 3 ⟨n + 1, hn⟩)
      (if (n + 1) % 16 = 0 then k1_pay2 (F := F) else scrAt c n (Nat.lt_of_succ_lt hn))

/-- At the first tile of a row block the running minimum starts from +∞. -/
theorem scrAt_first (c : Dev nD) (t : Fin cfg1.N) (h : t.val % 16 = 0) :
    scrAt V c t.val t.isLt = k1_pay3 (iblk1 V c 0 t) (iblk1 V c 1 t) (iblk1 V c 2 t) (iblk1 V c 3 t) (k1_pay2 (F := F)) := by
  obtain ⟨n, hn⟩ := t
  cases n with
  | zero => rfl
  | succ n => exact (by rw [scrAt, if_pos h])

/-- At a later tile it continues from the tile before. -/
theorem scrAt_next (c : Dev nD) (t : Fin cfg1.N) (h : ¬t.val % 16 = 0) :
    scrAt V c t.val t.isLt = k1_pay3 (iblk1 V c 0 t) (iblk1 V c 1 t) (iblk1 V c 2 t) (iblk1 V c 3 t) (scrAt V c (t.val - 1) (Nat.lt_of_le_of_lt (Nat.sub_le _ _) t.isLt)) := by
  obtain ⟨n, hn⟩ := t
  cases n with
  | zero => exact absurd (Nat.zero_mod _) h
  | succ n => exact (by rw [scrAt, if_neg h]; rfl)

/-- The loss column stored at position `n` (meaningful at the last tile of a row block). -/
def outAt (c : Dev nD) (n : ℕ) (hn : n < cfg1.N) : Vec F S1024x1 .f32 :=
  k1_pay1 (scrAt V c n hn) (scrAt V c n hn) (iblk1 V c 4 ⟨n, hn⟩)

/-! ## The invariant: the scratch between points -/

/-- The core's other scoped buffers (the first kernel's staging buffers), each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The scoped buffers no window stages are those and the scratch column. -/
theorem scoped_split (c : Dev nD) :
    (Pipeline.scopedRest (Ix := Unit) (Name := ℕ) (U := UR sig nD τ) (Lvl := ℕ) (Val := Elt F) spec1 c : sProp 𝕄)
      ⊢ iprop(others (F := F) c ∗ ∃ d, owns (c : Thread nD τ) scM fullShare d) := by
  rw [scopedRest1_eq]; unfold others; simp only [scM, owns_whole]
  iintro ⟨H1, H2, H3, H4, H5, H6, H7, H8, ⟨%f, H9⟩⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexists f; iexact H9

theorem scoped_join (c : Dev nD) :
    iprop(others (F := F) c ∗ ∃ d, owns (c : Thread nD τ) scM fullShare d)
      ⊢ (Pipeline.scopedRest (Ix := Unit) (Name := ℕ) (U := UR sig nD τ) (Lvl := ℕ) (Val := Elt F) spec1 c : sProp 𝕄) := by
  rw [scopedRest1_eq]; unfold others; simp only [scM, owns_whole]
  iintro ⟨⟨H1, H2, H3, H4, H5, H6, H7, H8⟩, ⟨%f, H9⟩⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists f; iexact H9

/-- The invariant before position `n`: before the first point every scoped buffer at anything; afterwards the scratch
    column at what the point before left. -/
def PhiS (c : Dev nD) : (n : ℕ) → n ≤ cfg1.N → sProp 𝕄
  | 0, _ => Pipeline.ΦA spec1 c
  | n + 1, hn => iprop(others (F := F) c ∗ owns (c : Thread nD τ) scM fullShare (scrAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others (F := F) c ∗ owns (c : Thread nD τ) scM fullShare (scrAt V c n hn) ∗ (∃ r, prngReg c r)) := rfl
theorem PhiS_pos (c : Dev nD) (n : ℕ) (h : n ≤ cfg1.N) (hz : n ≠ 0) :
    PhiS V c n h = iprop(others (F := F) c ∗ owns (c : Thread nD τ) scM fullShare (scrAt V c (n - 1) (by omega)) ∗ (∃ r, prngReg c r)) := by
  cases n with
  | zero => exact absurd rfl hz
  | succ n => rfl

/-! ## The proof data -/

/-- The arrays as the region finds them; after the body each input's buffer at its block and the output's at the stored
    loss column; the invariant above; the scaled-anchor array, read through two windows, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS V c t.val (Nat.le_of_lt_succ t.isLt)
  q w := match w with
    | ⟨0, _⟩ => (fullShare : PosShare TreeShare).left
    | ⟨1, _⟩ => (fullShare : PosShare TreeShare).right
    | _ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the closed forms of the two conditions say which case the point is in; the invariant hands
    the body the scratch at what the point before left (anything before the very first point) and takes it back at this
    point's running minimum; the output window is handed back as found away from the last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live1_0 t], after1_0]
  rw [show (dat1 V c).leavesExact 1 t = owns (c : Thread nD τ) (ms1 t) fullShare ((dat1 V c).after 1 t) from by
    unfold Dat.leavesExact; rw [live1_1 t], after1_1]
  rw [show (dat1 V c).leavesExact 2 t = owns (c : Thread nD τ) (ms2 t) fullShare ((dat1 V c).after 2 t) from by
    unfold Dat.leavesExact; rw [live1_2 t], after1_2]
  rw [show (dat1 V c).leavesExact 3 t = owns (c : Thread nD τ) (ms3 t) fullShare ((dat1 V c).after 3 t) from by
    unfold Dat.leavesExact; rw [live1_3 t], after1_3]
  rw [show (dat1 V c).leavesExact 4 t = owns (c : Thread nD τ) (ms4 t) fullShare ((dat1 V c).after 4 t) from by
    unfold Dat.leavesExact; rw [live1_4 t], after1_4]
  have hN : t.val < 128 := lt_of_lt_of_eq t.isLt N_1
  by_cases h0 : t.val % 16 = 0
  · -- the first tile of a row block
    have hc0 : condFirst (grid1.coords t) := (condFirst_iff t).mpr h0
    have hc1 : ¬condLast (grid1.coords t) := fun h => by have := (condLast_iff t).mp h; omega
    rw [Dat.leavesExact_idle (dat1 V c) 5 t (idle1_5 t hc1) (noFlush1_5 t hc1), scrAt_first V c t h0]
    by_cases hz : t.val = 0
    · rw [PhiS_castSucc V c t, PhiS_zero V c _ _ hz]; unfold Pipeline.ΦA
      iintro ⟨⟨Hsc, Hg⟩, Ho, ⟨%d0, H0⟩, ⟨%d1, H1⟩, ⟨%d2, H2⟩, ⟨%d3, H3⟩, ⟨%d4, H4⟩, ⟨%d5, H5⟩⟩
      ihave Hsp := (scoped_split (F := F) c) $$ Hsc
      icases Hsp with ⟨Hr, ⟨%ds, HS⟩⟩
      iapply (run_first c Set.univ (grid1.coords t) (ms0 t) (hs0 t) (ms1 t) (hs1 t) (ms2 t) (hs2 t) (ms3 t) (hs3 t) (ms4 t) (hs4 t) (ms5 t) (hs5 t) scM (Memref.isWhole_whole _) hc0 hc1 (iblk1 V c 0 t) (iblk1 V c 1 t) (iblk1 V c 2 t) (iblk1 V c 3 t) (iblk1 V c 4 t) ((dat1 V c).before 5 t d5) ds _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS_castSucc V c t, PhiS_pos V c _ _ hz]
      iintro ⟨⟨Hr, HS, Hg⟩, Ho, ⟨%d0, H0⟩, ⟨%d1, H1⟩, ⟨%d2, H2⟩, ⟨%d3, H3⟩, ⟨%d4, H4⟩, ⟨%d5, H5⟩⟩
      iapply (run_first c Set.univ (grid1.coords t) (ms0 t) (hs0 t) (ms1 t) (hs1 t) (ms2 t) (hs2 t) (ms3 t) (hs3 t) (ms4 t) (hs4 t) (ms5 t) (hs5 t) scM (Memref.isWhole_whole _) hc0 hc1 (iblk1 V c 0 t) (iblk1 V c 1 t) (iblk1 V c 2 t) (iblk1 V c 3 t) (iblk1 V c 4 t) ((dat1 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun e => h0 (by rw [e])
    have hc0 : ¬condFirst (grid1.coords t) := fun h => h0 ((condFirst_iff t).mp h)
    rw [PhiS_castSucc V c t, PhiS_pos V c _ _ hz]
    by_cases h1 : t.val % 16 = 15
    · -- the last tile: the loss column is stored
      have hc1 : condLast (grid1.coords t) := (condLast_iff t).mpr h1
      rw [show (dat1 V c).leavesExact 5 t = owns (c : Thread nD τ) (ms5 t) fullShare ((dat1 V c).after 5 t) from by
        unfold Dat.leavesExact; rw [live1_5 t hc1], after1_5]
      unfold outAt
      rw [scrAt_next V c t h0]
      iintro ⟨⟨Hr, HS, Hg⟩, Ho, ⟨%d0, H0⟩, ⟨%d1, H1⟩, ⟨%d2, H2⟩, ⟨%d3, H3⟩, ⟨%d4, H4⟩, ⟨%d5, H5⟩⟩
      iapply (run_last c Set.univ (grid1.coords t) (ms0 t) (hs0 t) (ms1 t) (hs1 t) (ms2 t) (hs2 t) (ms3 t) (hs3 t) (ms4 t) (hs4 t) (ms5 t) (hs5 t) scM (Memref.isWhole_whole _) hc0 hc1 (iblk1 V c 0 t) (iblk1 V c 1 t) (iblk1 V c 2 t) (iblk1 V c 3 t) (iblk1 V c 4 t) ((dat1 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle tile
      have hc1 : ¬condLast (grid1.coords t) := fun h => h1 ((condLast_iff t).mp h)
      rw [Dat.leavesExact_idle (dat1 V c) 5 t (idle1_5 t hc1) (noFlush1_5 t hc1), scrAt_next V c t h0]
      iintro ⟨⟨Hr, HS, Hg⟩, Ho, ⟨%d0, H0⟩, ⟨%d1, H1⟩, ⟨%d2, H2⟩, ⟨%d3, H3⟩, ⟨%d4, H4⟩, ⟨%d5, H5⟩⟩
      iapply (run_mid c Set.univ (grid1.coords t) (ms0 t) (hs0 t) (ms1 t) (hs1 t) (ms2 t) (hs2 t) (ms3 t) (hs3 t) (ms4 t) (hs4 t) (ms5 t) (hs5 t) scM (Memref.isWhole_whole _) hc0 hc1 (iblk1 V c 0 t) (iblk1 V c 1 t) (iblk1 V c 2 t) (iblk1 V c 3 t) (iblk1 V c 4 t) ((dat1 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  unfold Pipeline.ΦA
  iintro ⟨Hr, HS, Hg⟩
  isplitl [Hr HS]
  · iapply (scoped_join (F := F) c)
    isplitl [Hr]; · iexact Hr
    iexists _; iexact HS
  iexact Hg

end Data

end Cert.KernelIdeal.R1

end
-- ==== Proof.Run.lean ====
/-
  The whole program as a run of four segments, at any float algebra.

  @main is: the normalising kernel (region 0); two reshapes of the labels; the hard-negative kernel (region 1); a
  constant, a sum, a constant and a division. Between two segments a core holds every unscoped buffer whole, at a
  valuation that is a fold from the launch memory:
    W0  the launch memory;
    W1  W0 with region 0's arrays at what its write-backs leave;
    W2  W1 after the two reshapes;
    W3  W2 with the loss column at what region 1's write-backs leave (region 1 writes nothing else);
    W4  W3 after the four closing operations.
  Region 1 reads the scaled-anchor array through two windows, so on entry that buffer's full share is split in two
  halves, one per window, and joined again on exit; every other array of either region is held whole by one window.
  The run's post reads every unscoped buffer of the final memory at W4; the three argument arrays are written by
  no segment, so W4 has them as launched.
-/
import proofs.«170105_j8323646619735_1_alg».proof.Proof.Gen.KernelIdeal.Launch
import proofs.«170105_j8323646619735_1_alg».proof.Proof.Gen.KernelIdeal.Points
import proofs.«170105_j8323646619735_1_alg».proof.Proof.Gen.KernelIdeal.Regions
import proofs.«170105_j8323646619735_1_alg».proof.Proof.Region0
import proofs.«170105_j8323646619735_1_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b
/-- After region 0: its arrays at what the pipeline leaves (the two inputs as entered, each output's write-backs
    folded), every other buffer as entered. -/
def W1 (c : Dev nD) : Valuation τ sig (Elt F) :=
  Pipeline.withArrays spec0 c (W0 m c) fun w => (R0.dat0 (V0 m) c).arrAt w cfg0.N
theorem W1_arr (c : Dev nD) (w : Fin cfg0.W) :
    W1 m c (Proc.devRef .tc (Pipeline.arrRef spec0 w)) = (R0.dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m c b
theorem hF0 (c : Dev nD) (w : Fin cfg0.W) : (R0.dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes of the labels (region 1's entry). -/
abbrev W2 : Dev nD → Valuation τ sig (Elt F) := fun c => StableHlo.after hostOps1 (W1 m c)
/-- The same read at the TensorCore's references (what region 1's proof data take). -/
abbrev V2 : (c : Dev nD) → (b : Ref sig .tc) → Buf (Elt F) ((c : Thread nD τ).loc b) := fun c b => W2 m c b
/-- After region 1: the loss column at what its write-backs leave, every other buffer as entered. -/
def W3 (c : Dev nD) : Valuation τ sig (Elt F) :=
  Function.update (W2 m c) (Proc.devRef .tc main_v3) ((R1.dat1 (V2 m) c).arrAt 5 cfg1.N)
theorem W3_out (c : Dev nD) : W3 m c (Proc.devRef .tc main_v3) = (R1.dat1 (V2 m) c).arrAt 5 cfg1.N := by
  unfold W3; exact Function.update_self _ _ _
theorem W3_of_ne (c : Dev nD) (b : Ref sig .tc) (hb : b ≠ main_v3) :
    W3 m c (Proc.devRef .tc b) = W2 m c (Proc.devRef .tc b) := by
  unfold W3; exact Function.update_of_ne (StableHlo.devRef_ne_of_ne hb) _ _
/-- The same read at the TensorCore's references (region 1's exit contents). -/
abbrev V3 : (c : Dev nD) → (b : Ref sig .tc) → Buf (Elt F) ((c : Thread nD τ).loc b) := fun c b => W3 m c b
/-- After the four closing operations: the end. -/
abbrev W4 : Dev nD → Valuation τ sig (Elt F) := fun c => StableHlo.after hostOps2 (W3 m c)

/-! ## The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((R0.dat0 (V0 m) c).arrAt_in 0 rfl _).trans (R0.A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 1).trans (((R0.dat0 (V0 m) c).arrAt_in 1 rfl _).trans (R0.A_eq0 (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V0 m) c
  | ⟨1, _⟩ => fun c => R1.dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment: over the unscoped references from the contents W, R riding along; it leaves
    those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at
    some state. -/
abbrev Tₙ (c : Dev nD) : sProp 𝕄 := iprop(StableHlo.held (c : Thread nD τ) (Pipeline.ucRefs τ sig) (W4 m c) ∗ ∃ r, prngReg c r)

/-! ## Region 0 as a segment -/

set_option backward.isDefEq.respectTransparency.types false in
/-- Region 0 over the thread state: entered from every unscoped buffer at W0, left at W1. Its four arrays are split
    out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: five buffers behind six windows -/

section SharedArray

variable (V : (c : Dev nD) → (b : Ref sig .tc) → Buf (Elt F) ((c : Thread nD τ).loc b))

/-- The shares region 1's proof data hold the arrays at: the scaled-anchor array in two halves, one per window on
    it; every other array whole. -/
theorem share1 (c : Dev nD) : (R1.dat1 V c).share 0 = (fullShare : PosShare TreeShare).left
    ∧ (R1.dat1 V c).share 1 = (fullShare : PosShare TreeShare).right
    ∧ (R1.dat1 V c).share 2 = fullShare ∧ (R1.dat1 V c).share 3 = fullShare
    ∧ (R1.dat1 V c).share 4 = fullShare ∧ (R1.dat1 V c).share 5 = fullShare :=
  ⟨rfl, rfl, rfl, rfl, rfl, rfl⟩

/-- Region 1's arrays, window by window, each a whole buffer at its share. -/
theorem arrays1_eq (c : Dev nD) (Fn : (w : Fin cfg1.W) → Buf (Elt F) ((cfg1.win w).arr.view.loc (c : Thread nD τ))) :
    ((R1.dat1 V c).arrays Fn : sProp 𝕄) = iprop(
      (((c : Thread nD τ).loc main_v0_0) ↦{(fullShare : PosShare TreeShare).left} Fn 0)
      ∗ (((c : Thread nD τ).loc main_v0_0) ↦{(fullShare : PosShare TreeShare).right} Fn 1)
      ∗ (((c : Thread nD τ).loc main_v1) ↦{fullShare} Fn 2)
      ∗ (((c : Thread nD τ).loc main_v2) ↦{fullShare} Fn 3)
      ∗ (((c : Thread nD τ).loc main_v0_1) ↦{fullShare} Fn 4)
      ∗ (((c : Thread nD τ).loc main_v3) ↦{fullShare} Fn 5)) := by
  have hw : ((R1.dat1 V c).arrays Fn : sProp 𝕄)
      = bigSep Finset.univ fun w : Fin cfg1.W => (((c : Thread nD τ).loc (Pipeline.arrRef spec1 w)) ↦{(R1.dat1 V c).share w} Fn w : sProp 𝕄) := by
    unfold Pipeline.Dat.arrays
    exact bigSep_congr fun w _ => by rw [(arr_whole1 w).set_eq_univ]
  obtain ⟨s0, s1, s2, s3, s4, s5⟩ := share1 V c
  rw [hw, bigSep_W1, s0, s1, s2, s3, s4, s5]

end SharedArray

section SharedArray2

/-- The five distinct buffers behind region 1's arrays, listed. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0_0) ↦{fullShare} Vc main_v0_0)
        ∗ (((c : Thread nD τ).loc main_v1) ↦{fullShare} Vc main_v1)
        ∗ (((c : Thread nD τ).loc main_v2) ↦{fullShare} Vc main_v2)
        ∗ (((c : Thread nD τ).loc main_v0_1) ↦{fullShare} Vc main_v0_1)
        ∗ (((c : Thread nD τ).loc main_v3) ↦{fullShare} Vc main_v3)) := by
  unfold Pipeline.arrBufs
  exact bigSep_eq_bigSepL_of_eq [main_v0_0, main_v1, main_v2, main_v0_1, main_v3] (by decide) (by decide) _

variable (V : (c : Dev nD) → (b : Ref sig .tc) → Buf (Elt F) ((c : Thread nD τ).loc b))

/-- ENTRY: the five buffers, each whole at the entry contents, make the six windows' arrays at entry: the
    scaled-anchor buffer's full share is split into the two halves its two windows hold. -/
theorem arrays1_of_bufs (c : Dev nD) :
    (Pipeline.arrBufs (Ix := Unit) (Name := ℕ) (U := UR sig nD τ) (Lvl := ℕ) spec1 c (V c) : sProp 𝕄)
      ⊢ (R1.dat1 V c).arrays ((R1.dat1 V c).arrAt · 0) := by
  rw [arrBufs1_eq, arrays1_eq]
  show _ ⊢ iprop(
      (((c : Thread nD τ).loc main_v0_0) ↦{(fullShare : PosShare TreeShare).left} V c main_v0_0)
      ∗ (((c : Thread nD τ).loc main_v0_0) ↦{(fullShare : PosShare TreeShare).right} V c main_v0_0)
      ∗ (((c : Thread nD τ).loc main_v1) ↦{fullShare} V c main_v1)
      ∗ (((c : Thread nD τ).loc main_v2) ↦{fullShare} V c main_v2)
      ∗ (((c : Thread nD τ).loc main_v0_1) ↦{fullShare} V c main_v0_1)
      ∗ (((c : Thread nD τ).loc main_v3) ↦{fullShare} V c main_v3))
  iintro ⟨H0, H1, H2, H3, H4⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  iexact H4

/-- EXIT: the six windows' arrays after the region — the five input windows' as entered, the two halves of the
    scaled-anchor buffer at the same contents, the loss column at what the write-backs leave — are the five buffers,
    each whole, at any valuation that has the loss column there and agrees with the entry contents elsewhere. -/
theorem bufs_of_arrays1 (c : Dev nD) (V' : (b : Ref sig .tc) → Buf (Elt F) ((c : Thread nD τ).loc b))
    (hout : V' main_v3 = (R1.dat1 V c).arrAt 5 cfg1.N) (hsame : ∀ b, b ≠ main_v3 → V' b = V c b) :
    ((R1.dat1 V c).arrays ((R1.dat1 V c).arrAt · cfg1.N) : sProp 𝕄)
      ⊢ Pipeline.arrBufs (Ix := Unit) (Name := ℕ) (U := UR sig nD τ) (Lvl := ℕ) spec1 c V' := by
  have h0 : (R1.dat1 V c).arrAt 0 cfg1.N = V c main_v0_0 := ((R1.dat1 V c).arrAt_in 0 rfl _).trans (R1.A_eq1 V c 0)
  have h1 : (R1.dat1 V c).arrAt 1 cfg1.N = V c main_v0_0 := ((R1.dat1 V c).arrAt_in 1 rfl _).trans (R1.A_eq1 V c 1)
  have h2 : (R1.dat1 V c).arrAt 2 cfg1.N = V c main_v1 := ((R1.dat1 V c).arrAt_in 2 rfl _).trans (R1.A_eq1 V c 2)
  have h3 : (R1.dat1 V c).arrAt 3 cfg1.N = V c main_v2 := ((R1.dat1 V c).arrAt_in 3 rfl _).trans (R1.A_eq1 V c 3)
  have h4 : (R1.dat1 V c).arrAt 4 cfg1.N = V c main_v0_1 := ((R1.dat1 V c).arrAt_in 4 rfl _).trans (R1.A_eq1 V c 4)
  rw [arrBufs1_eq, arrays1_eq, hout, hsame main_v0_0 (by decide), hsame main_v1 (by decide), hsame main_v2 (by decide),
    hsame main_v0_1 (by decide)]
  rw [h0, h1, h2, h3, h4]
  iintro ⟨Hl, Hr, H1, H2, H3, H4⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact H4

end SharedArray2

/-- Region 1's entry: every unscoped buffer at W2 is its six windows' arrays at entry beside the unscoped buffers
    that are no array of its. -/
theorem entry1 (c : Dev nD) :
    (StableHlo.held (c : Thread nD τ) (Pipeline.ucRefs τ sig) (W2 m c) : sProp 𝕄)
      ⊢ iprop((R1.dat1 (V2 m) c).arrays ((R1.dat1 (V2 m) c).arrAt · 0)
          ∗ Pipeline.unscopedRest (Ix := Unit) (Name := ℕ) (U := UR sig nD τ) (Lvl := ℕ) spec1 c (V2 m c)) := by
  rw [← Pipeline.unscopedBufs_held (Ix := Unit) (Name := ℕ) (U := UR sig nD τ) (Lvl := ℕ) c (W2 m c),
    Pipeline.unscopedBufs_split₀ cfgs 1 winFacts₀1.arr_unscoped c (V2 m c)]
  exact sep_mono (arrays1_of_bufs (V2 m) c) .rfl

/-- Region 1's exit: its arrays after the region and the bypassing buffers are every unscoped buffer at W3. -/
theorem exit1 (c : Dev nD) :
    iprop((R1.dat1 (V2 m) c).arrays ((R1.dat1 (V2 m) c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    Pipeline.unscopedBufs_split₀ cfgs 1 winFacts₀1.arr_unscoped c (V3 m c)]
  refine sep_mono (bufs_of_arrays1 (V2 m) c (V3 m c) (W3_out m c) (fun b hb => W3_of_ne m c b hb)) (Entails.of_eq ?_)
  unfold Pipeline.unscopedRest
  refine bigSep_congr fun b hb => ?_
  have hne : b ≠ main_v3 := fun e => (Finset.mem_sdiff.mp hb).2 (Finset.mem_image.mpr ⟨5, Finset.mem_univ _, e.symm⟩)
  rw [show V3 m c b = V2 m c b from W3_of_ne m c b hne]

/-! ## Region 1 as a segment -/

set_option backward.isDefEq.respectTransparency.types false in
/-- Region 1 over the thread state: entered from every unscoped buffer at W2, left at W3. Its arrays are split out
    of the unscoped buffers, the shared one in halves, and put back with the loss column at what the write-backs
    leave; the generator register goes into the region's invariant and comes out; nothing is owed; the kernel has
    no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin1 (V2 m) c)
    unfold Pipeline.ΦA
    iintro ⟨Hp, -, Hr⟩
    isplitl [Hr]; · iexact Hr
    iexact Hp
  hout c := by
    rw [Pipeline.ownSems0_none]
    refine BIBase.Entails.trans (R1.hout1 (V2 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final memory has every unscoped buffer at the last boundary's
    contents W4. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.RunK

end
-- ==== Proof.Spec.lean ====
/-
  The hard-negative triplet loss as ONE function of the three argument arrays, on the extended reals, index by index.

  For an 8192 × 128 array x, row i is scaled by the reciprocal of max(√(∑_d x(i,d)²), ε), ε the single-precision word
  nearest 10⁻¹² (the same word in both programs, never evaluated). With â, p̂ the scaled anchor and positive arrays:
    · posd i        = ∑_d (â(i,d) − p̂(i,d))²                         squared distance to the positive,
    · gram i j      = ∑_d â(i,d) · â(j,d),
    · dist i j      = √(max(2 − 2·gram i j, 0)),
    · masked i j    = +∞ where rows i and j carry the same label, dist i j elsewhere,
    · nearest i     = the minimum over j of masked i j, started from +∞,
    · loss i        = max(posd i − (nearest i)² + ½, 0),
    · result        = (∑_i loss i) / 8192.
  Both programs compute exactly these operations; they differ only in how the minimum over j is grouped (sixteen tiles
  of 512 columns against one pass) and in how arrays are laid out, so no finiteness of the inputs is used anywhere.
-/
import Idealize.ShloMosaic.PureOps.Ideal
import Idealize.ShloMosaic.Lib.ValueIdx

noncomputable section

open scoped BigOperators

namespace Cert.Spec

open Idealize.ShloMosaic Idealize.ShloMosaic.ValueIdx

/-- An 8192 × 128 array of extended reals. -/
abbrev Mat : Type := (⟨2, ![8192, 128]⟩ : Shape).Idx → EReal
/-- The 8192 labels, 32-bit words. -/
abbrev Lab : Type := (⟨1, ![8192]⟩ : Shape).Idx → BitVec 32

/-- The literals, each the extended real its single-precision word denotes. -/
def eps : EReal := Ideal.ofBits .f32 0x2B8CBCCC#32
def two : EReal := Ideal.ofBits .f32 0x40000000#32
def zero : EReal := Ideal.ofBits .f32 0x00000000#32
def inf : EReal := Ideal.ofBits .f32 0x7F800000#32
def half : EReal := Ideal.ofBits .f32 0x3F000000#32
def count : EReal := Ideal.ofBits .f32 0x46000000#32

/-- The clamped Euclidean norm of row i. -/
def norm (x : Mat) (i : Fin 8192) : EReal :=
  max (Ideal.sqrt (∑ d : Fin 128, x (ix2 i d) * x (ix2 i d))) eps

/-- Row i scaled to (clamped) unit length, at column d. -/
def unit (x : Mat) (i : Fin 8192) (d : Fin 128) : EReal := Ideal.div (x (ix2 i d)) (norm x i)

/-- The squared distance between the scaled anchor row and the scaled positive row. -/
def posd (a p : Mat) (i : Fin 8192) : EReal :=
  ∑ d : Fin 128, (unit a i d - unit p i d) * (unit a i d - unit p i d)

/-- The inner product of two scaled anchor rows. -/
def gram (a : Mat) (i j : Fin 8192) : EReal := ∑ d : Fin 128, unit a i d * unit a j d

/-- The distance between two scaled anchor rows, from their inner product. -/
def dist (a : Mat) (i j : Fin 8192) : EReal := Ideal.sqrt (max (two - two * gram a i j) zero)

/-- The distance with same-label pairs pushed to +∞. -/
def masked (a : Mat) (l : Lab) (i j : Fin 8192) : EReal :=
  Scalar.select (IntOp.cmpi .eq (l (ix1 i)) (l (ix1 j))) inf (dist a i j)

/-- The distance from row i to its nearest row of another label. -/
def nearest (a : Mat) (l : Lab) (i : Fin 8192) : EReal :=
  (Finset.univ : Finset (Fin 8192)).fold min inf (fun j => masked a l i j)

/-- The loss of row i. -/
def loss (a p : Mat) (l : Lab) (i : Fin 8192) : EReal :=
  max (posd a p i - nearest a l i * nearest a l i + half) zero

/-- The mean loss. -/
def result (a p : Mat) (l : Lab) : EReal := Ideal.div (∑ i : Fin 8192, loss a p l i) count

end Cert.Spec

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.Region0Value.lean ====
/-
  What the first pallas_call leaves in its two output arrays, on the extended reals.

  At grid point t the body reads rows 1024·t … 1024·t + 1023 of the anchor array a and of the positive array p.
  Its first store is, row by row, the sum over the 128 columns of the squared difference of the two scaled rows;
  its second store is the scaled anchor rows. A row is scaled by the reciprocal of max(√(sum of its squares), ε).
  Since a row's scale depends on that row alone, block t of either output is block t of ONE function of the whole
  arrays: the scaled anchor array, and the column of squared distances. The eight blocks tile the 8192 rows (row r
  lies in block r / 1024), so after the region each output array is that function.
-/
import proofs.«170105_j8323646619735_1_alg».proof.Proof.Region0
import proofs.«170105_j8323646619735_1_alg».proof.Proof.Spec
import proofs.«170105_j8323646619735_1_alg».proof.Proof.LibColumn
import proofs.«170105_j8323646619735_1_alg».proof.Proof.LibAxisReduce
import Idealize.ShloMosaic.Lib.Pipeline.Value
import Idealize.ShloMosaic.Lib.ValueIdx

noncomputable section

open scoped BigOperators

namespace Cert.KernelIdeal.R0V

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)

/-! ## The body's arithmetic on one block, index by index -/

/-- The clamped Euclidean norm of row r of a block. -/
def bnorm (x : Vec Ideal S1024x128 .f32) (r : Fin 1024) : EReal :=
  max (Ideal.sqrt (∑ k : Fin 128, x (ix2 r k) * x (ix2 r k))) Cert.Spec.eps

/-- Row r of a block scaled to (clamped) unit length, at column d. -/
def bunit (x : Vec Ideal S1024x128 .f32) (r : Fin 1024) (d : Fin 128) : EReal := Ideal.div (x (ix2 r d)) (bnorm x r)

/-- The scaled block at (r, d): the row sum of squares is a plain sum over the 128 columns, the two keepdims
    layouts only move it to every column of its row, and the square root, the maximum and the division are
    entrywise. -/
theorem pay1_apply (x0 : Vec Ideal S1024x128 .f32) (r : Fin 1024) (d : Fin 128) :
    k0_pay1 (F := Ideal) x0 (ix2 r d) = bunit x0 r d := by
  unfold k0_pay1
  show Ideal.div (x0 (ix2 r d)) (broadcastTo S1024x128 _ broadcasts_S1024x1_S1024x128 (ix2 r d)) = _
  refine congrArg (Ideal.div (x0 (ix2 r d))) ?_
  refine (Cert.LibColumn.broadcastTo_a1_ab_apply _ broadcasts_S1024x1_S1024x128 r d).trans ?_
  show max (Ideal.sqrt (shapeCast S1024x1 _ shapeCasts_S1024_S1024x1 (ix2 r (0 : Fin 1)))) (Ideal.ofBits .f32 0x2B8CBCCC#32) = _
  refine congrArg (fun z => max (Ideal.sqrt z) Cert.Spec.eps) ?_
  refine (Cert.LibColumn.shapeCast_a_a1_apply _ shapeCasts_S1024_S1024x1 r (0 : Fin 1)).trans ?_
  exact Cert.LibAxisReduce.add_cols_apply (mulf x0 x0) 0x00000000#32 reduces_S1024x128_S1024 (.inl rfl) rfl r

/-- The narrowing cast is the identity on the extended reals. -/
theorem pay3_apply (x0 : Vec Ideal S1024x128 .f32) (r : Fin 1024) (d : Fin 128) :
    k0_pay3 (F := Ideal) x0 (ix2 r d) = bunit x0 r d :=
  pay1_apply x0 r d

/-- The distance column at row r: the sum over the columns of the squared difference of the two scaled rows. -/
theorem pay2_apply (x0 x1 : Vec Ideal S1024x128 .f32) (r : Fin 1024) (u : Fin 1) :
    k0_pay2 (F := Ideal) x0 x1 (ix2 r u)
      = ∑ d : Fin 128, (bunit x0 r d - bunit x1 r d) * (bunit x0 r d - bunit x1 r d) := by
  unfold k0_pay2
  refine (Cert.LibColumn.shapeCast_a_a1_apply _ shapeCasts_S1024_S1024x1 r u).trans ?_
  refine (Cert.LibAxisReduce.add_cols_apply _ 0x00000000#32 reduces_S1024x128_S1024 (.inl rfl) rfl r).trans ?_
  refine Finset.sum_congr rfl fun d _ => ?_
  show (k0_pay1 (F := Ideal) x0 (ix2 r d) - k0_pay1 (F := Ideal) x1 (ix2 r d))
      * (k0_pay1 (F := Ideal) x0 (ix2 r d) - k0_pay1 (F := Ideal) x1 (ix2 r d)) = _
  rw [pay1_apply, pay1_apply]

/-! ## From a block to the arrays -/

/-- If row r of a block is row R of an array, the two clamped norms agree. -/
theorem bnorm_block (x : Vec Ideal S1024x128 .f32) (a : Cert.Spec.Mat) (r : Fin 1024) (R : Fin 8192)
    (hx : ∀ d : Fin 128, x (ix2 r d) = a (ix2 R d)) : bnorm x r = Cert.Spec.norm a R := by
  unfold bnorm Cert.Spec.norm
  refine congrArg (fun z => max (Ideal.sqrt z) Cert.Spec.eps) ?_
  exact Finset.sum_congr rfl fun k _ => by rw [hx k]

/-- and so do the scaled rows, column by column. -/
theorem bunit_block (x : Vec Ideal S1024x128 .f32) (a : Cert.Spec.Mat) (r : Fin 1024) (R : Fin 8192)
    (hx : ∀ d : Fin 128, x (ix2 r d) = a (ix2 R d)) (d : Fin 128) : bunit x r d = Cert.Spec.unit a R d := by
  unfold bunit Cert.Spec.unit
  rw [bnorm_block x a r R hx, hx d]

/-- The scaled block, when the block is rows 1024·n … of an array a, is the same rows of the scaled array: entry y
    of the block is entry i of the array whenever i is y shifted down by 1024·n rows. -/
theorem scaled_block (x0 : Vec Ideal S1024x128 .f32) (a : Cert.Spec.Mat) (n : ℕ)
    (hx : ∀ (r : Fin 1024) (d : Fin 128) (R : Fin 8192), R.val = 1024 * n + r.val → x0 (ix2 r d) = a (ix2 R d))
    (y : S1024x128.Idx) (i : S8192x128.Idx) (h0 : (i 0).val = 1024 * n + (y 0).val) (h1 : (i 1).val = (y 1).val) :
    k0_pay3 (F := Ideal) x0 y = Cert.Spec.unit a (i 0) (i 1) := by
  obtain ⟨r, d, rfl⟩ : ∃ (r : Fin 1024) (d : Fin 128), y = ix2 r d := ⟨y 0, y 1, eq_ix2 y⟩
  refine (pay3_apply x0 r d).trans ?_
  refine (bunit_block x0 a r (i 0) (fun d' => hx r d' (i 0) h0) d).trans ?_
  exact congrArg (Cert.Spec.unit a (i 0)) (Fin.ext h1.symm : d = (i 1 : Fin 128))

/-- The distance column of a block, when the two blocks are rows 1024·n … of arrays a and p, is the same rows of
    the arrays' distance column. -/
theorem dist_block (x0 x1 : Vec Ideal S1024x128 .f32) (a p : Cert.Spec.Mat) (n : ℕ)
    (hx0 : ∀ (r : Fin 1024) (d : Fin 128) (R : Fin 8192), R.val = 1024 * n + r.val → x0 (ix2 r d) = a (ix2 R d))
    (hx1 : ∀ (r : Fin 1024) (d : Fin 128) (R : Fin 8192), R.val = 1024 * n + r.val → x1 (ix2 r d) = p (ix2 R d))
    (y : S1024x1.Idx) (i : S8192x1.Idx) (h0 : (i 0).val = 1024 * n + (y 0).val) :
    k0_pay2 (F := Ideal) x0 x1 y = Cert.Spec.posd a p (i 0) := by
  obtain ⟨r, u, rfl⟩ : ∃ (r : Fin 1024) (u : Fin 1), y = ix2 r u := ⟨y 0, y 1, eq_ix2 y⟩
  refine (pay2_apply x0 x1 r u).trans ?_
  unfold Cert.Spec.posd
  refine Finset.sum_congr rfl fun d _ => ?_
  rw [bunit_block x0 a r (i 0) (fun d' => hx0 r d' (i 0) h0) d, bunit_block x1 p r (i 0) (fun d' => hx1 r d' (i 0) h0) d]

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: at point t every window is on block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (r, d) of the anchor block at point t is entry (1024·t + r, d) of the anchor array. -/
theorem anchor_block (c : Dev nD) (t : Fin cfg0.N) (r : Fin 1024) (d : Fin 128) (R : Fin 8192) (hR : R.val = 1024 * t.val + r.val) :
    (iblk0 V c 0 t : Vec Ideal S1024x128 .f32) (ix2 r d) = (V c main_arg0 : S8192x128.Idx → EReal) (ix2 R d) := by
  obtain ⟨e0, e1, -⟩ := idx_facts t
  unfold iblk0
  rw [View.read_apply]
  show V c main_arg0 _ = V c main_arg0 _
  refine congrArg (V c main_arg0) ?_
  funext a; apply Fin.ext
  match a with
  | ⟨0, _⟩ => show win0_0.index t (0 : Fin 2) * 1024 + 1 * r.val = R.val; rw [e0, hR]; omega
  | ⟨1, _⟩ => show win0_0.index t (1 : Fin 2) * 128 + 1 * d.val = d.val; rw [e1]; omega

/-- The same for the positive block. -/
theorem positive_block (c : Dev nD) (t : Fin cfg0.N) (r : Fin 1024) (d : Fin 128) (R : Fin 8192) (hR : R.val = 1024 * t.val + r.val) :
    (iblk0 V c 1 t : Vec Ideal S1024x128 .f32) (ix2 r d) = (V c main_arg1 : S8192x128.Idx → EReal) (ix2 R d) := by
  obtain ⟨-, -, e2, e3, -⟩ := idx_facts t
  unfold iblk0
  rw [View.read_apply]
  show V c main_arg1 _ = V c main_arg1 _
  refine congrArg (V c main_arg1) ?_
  funext a; apply Fin.ext
  match a with
  | ⟨0, _⟩ => show win0_1.index t (0 : Fin 2) * 1024 + 1 * r.val = R.val; rw [e2, hR]; omega
  | ⟨1, _⟩ => show win0_1.index t (1 : Fin 2) * 128 + 1 * d.val = d.val; rw [e3]; omega

/-! ## The scaled anchor array (window 2) -/

/-- What point t writes back is block t of the scaled anchor array. -/
theorem flushed2_eq (c : Dev nD) (t : Fin cfg0.N) :
    (dat0 (F := Ideal) V c).flushed 2 t
      = ((cfg0.win 2).blk t).view.read (Elt Ideal) (fun j : S8192x128.Idx => Cert.Spec.unit (V c main_arg0) (j 0) (j 1)) := by
  show (cfg0.win 2).cut (grid0.coords t) ((dat0 V c).after 2 t) = _
  rw [after0_2]
  unfold out0_2
  rw [View.canon_unit_zero hz]
  simp only [View.ld_unit_zero (S := S1024x128) hz]
  obtain ⟨-, -, -, -, e4, e5, -⟩ := idx_facts t
  funext y
  show k0_pay3 (F := Ideal) (iblk0 V c 0 t) y
    = Cert.Spec.unit (V c main_arg0) ((((cfg0.win 2).blk t).view.emb y) 0) ((((cfg0.win 2).blk t).view.emb y) 1)
  refine scaled_block (iblk0 V c 0 t) (V c main_arg0) t.val (fun r d R hR => anchor_block V c t r d R hR) y _ ?_ ?_
  · show win0_2.index t (0 : Fin 2) * 1024 + 1 * (y 0).val = 1024 * t.val + (y 0).val; rw [e4]; omega
  · show win0_2.index t (1 : Fin 2) * 128 + 1 * (y 1).val = (y 1).val; rw [e5]; omega

/-- An index of the array is in point t's block iff each coordinate is in the block's range on its axis. -/
theorem mem_blk2 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0_0).slice (win0_2.rect t)).set ↔ _
  rw [View.set_slice_whole, Rect.mem_set_unit]
  exact Iff.rfl

/-- Row r lies in the block of point r / 1024. -/
theorem cover2 (i : S8192x128.Idx) : ∃ t : Fin cfg0.N, (cfg0.win 2).flush t = true ∧ i ∈ ((cfg0.win 2).blk t).view.set := by
  have hN : cfg0.N = 8 := N_0
  have hi0 : (i 0).val < 8192 := (i 0).isLt
  have hi1 : (i 1).val < 128 := (i 1).isLt
  obtain ⟨t, ht⟩ : ∃ t : Fin cfg0.N, t.val = (i 0).val / 1024 := ⟨⟨(i 0).val / 1024, by rw [hN]; omega⟩, rfl⟩
  obtain ⟨-, -, -, -, e4, e5, -⟩ := idx_facts t
  refine ⟨t, flush0_2 t, ?_⟩
  rw [mem_blk2]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 128 ≤ (i 1).val ∧ (i 1).val < win0_2.index t (1 : Fin 2) * 128 + 128; rw [e5]; omega

/-- After the region the scaled-anchor array holds, at (i, d), row i of the anchor array scaled, at column d. -/
theorem arr0_2 (c : Dev nD) :
    (dat0 (F := Ideal) V c).arrAt 2 cfg0.N = fun j : S8192x128.Idx => Cert.Spec.unit (V c main_arg0) (j 0) (j 1) :=
  (dat0 (F := Ideal) V c).arrAt_eq_of_cover 2 _ (fun t _ => flushed2_eq V c t) cover2

/-! ## The squared-distance column (window 3) -/

/-- What point t writes back is block t of the squared-distance column. -/
theorem flushed3_eq (c : Dev nD) (t : Fin cfg0.N) :
    (dat0 (F := Ideal) V c).flushed 3 t
      = ((cfg0.win 3).blk t).view.read (Elt Ideal) (fun j : S8192x1.Idx => Cert.Spec.posd (V c main_arg0) (V c main_arg1) (j 0)) := by
  show (cfg0.win 3).cut (grid0.coords t) ((dat0 V c).after 3 t) = _
  rw [after0_3]
  unfold out0_3
  rw [View.canon_unit_zero hz]
  simp only [View.ld_unit_zero (S := S1024x128) hz]
  obtain ⟨-, -, -, -, -, -, e6, -⟩ := idx_facts t
  funext y
  show k0_pay2 (F := Ideal) (iblk0 V c 0 t) (iblk0 V c 1 t) y
    = Cert.Spec.posd (V c main_arg0) (V c main_arg1) ((((cfg0.win 3).blk t).view.emb y) 0)
  refine dist_block (iblk0 V c 0 t) (iblk0 V c 1 t) (V c main_arg0) (V c main_arg1) t.val
    (fun r d R hR => anchor_block V c t r d R hR) (fun r d R hR => positive_block V c t r d R hR) y _ ?_
  show win0_3.index t (0 : Fin 2) * 1024 + 1 * (y 0).val = 1024 * t.val + (y 0).val; rw [e6]; omega

theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

theorem cover3 (i : S8192x1.Idx) : ∃ t : Fin cfg0.N, (cfg0.win 3).flush t = true ∧ i ∈ ((cfg0.win 3).blk t).view.set := by
  have hN : cfg0.N = 8 := N_0
  have hi0 : (i 0).val < 8192 := (i 0).isLt
  have hi1 : (i 1).val < 1 := (i 1).isLt
  obtain ⟨t, ht⟩ : ∃ t : Fin cfg0.N, t.val = (i 0).val / 1024 := ⟨⟨(i 0).val / 1024, by rw [hN]; omega⟩, rfl⟩
  obtain ⟨-, -, -, -, -, -, e6, e7⟩ := idx_facts t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; rw [e6]; omega
  | ⟨1, _⟩ => show win0_3.index t (1 : Fin 2) * 1 ≤ (i 1).val ∧ (i 1).val < win0_3.index t (1 : Fin 2) * 1 + 1; rw [e7]; omega

/-- After the region the squared-distance column holds, at (i, 0), the squared distance between row i of the
    scaled anchor array and row i of the scaled positive array. -/
theorem arr0_3 (c : Dev nD) :
    (dat0 (F := Ideal) V c).arrAt 3 cfg0.N = fun j : S8192x1.Idx => Cert.Spec.posd (V c main_arg0) (V c main_arg1) (j 0) :=
  (dat0 (F := Ideal) V c).arrAt_eq_of_cover 3 _ (fun t _ => flushed3_eq V c t) cover3

end Cert.KernelIdeal.R0V

end
-- ==== Proof.SpecTiles.lean ====
/-
  The second kernel's result as a function of ITS four input arrays, whatever they hold: for a 8192 × 128 array u of
  rows, a 8192 × 1 column of distances to the positive, and the labels laid out once as a column and once as a row,
    · gramOf u i j     = ∑_d u(i,d) · u(j,d),
    · distOf u i j     = √(max(2 − 2·gramOf u i j, 0)),
    · maskedOf i j     = +∞ where the column's label at i equals the row's label at j, distOf u i j elsewhere,
    · nearestOf i      = the minimum over the 8192 columns j of maskedOf i j, started from +∞,
    · lossOf i         = max(pc(i) − (nearestOf i)² + ½, 0).
  With u the scaled anchor rows and pc the squared distances to the positive this is the specification's loss.
-/
import proofs.«170105_j8323646619735_1_alg».proof.Proof.Spec

noncomputable section

open scoped BigOperators

namespace Cert.Spec

open Idealize.ShloMosaic Idealize.ShloMosaic.ValueIdx

/-- An 8192 × 1 column of extended reals; the labels as a column and as a row. -/
abbrev Col : Type := (⟨2, ![8192, 1]⟩ : Shape).Idx → EReal
abbrev LabCol : Type := (⟨2, ![8192, 1]⟩ : Shape).Idx → BitVec 32
abbrev LabRow : Type := (⟨2, ![1, 8192]⟩ : Shape).Idx → BitVec 32

def gramOf (u : Mat) (i j : Fin 8192) : EReal := ∑ d : Fin 128, u (ix2 i d) * u (ix2 j d)

def distOf (u : Mat) (i j : Fin 8192) : EReal := Ideal.sqrt (max (two - two * gramOf u i j) zero)

def maskedOf (u : Mat) (lc : LabCol) (lr : LabRow) (i j : Fin 8192) : EReal :=
  Scalar.select (IntOp.cmpi .eq (lc (ix2 i 0)) (lr (ix2 0 j))) inf (distOf u i j)

def nearestOf (u : Mat) (lc : LabCol) (lr : LabRow) (i : Fin 8192) : EReal :=
  (Finset.univ : Finset (Fin 8192)).fold min inf (fun j => maskedOf u lc lr i j)

def lossOf (u : Mat) (pc : Col) (lc : LabCol) (lr : LabRow) (i : Fin 8192) : EReal :=
  max (pc (ix2 i 0) - nearestOf u lc lr i * nearestOf u lc lr i + half) zero

/-- With the scaled anchor rows, the distances to the positive and the labels' two layouts, the loss column is the
    specification's loss. -/
theorem lossOf_eq (a p : Mat) (l : Lab) (i : Fin 8192) :
    lossOf (fun j => unit a (j 0) (j 1)) (fun j => posd a p (j 0)) (fun j => l (ix1 (j 0))) (fun j => l (ix1 (j 1))) i
      = loss a p l i := rfl

end Cert.Spec

end
-- ==== Proof.LibTransDot.lean ====
/-
  The matrix product with the right operand transposed, read at an index.

  For the dimension numbers of an M×K by N×K product (contract the left operand's axis 1 with the right operand's
  axis 1, no batch axes), the sum over the contraction index that both a matmul into a zero accumulator and a
  host dot_general denote at the ideal values is the textbook one: entry (p, q) is the sum over l of
  lhs (p, l) · rhs (q, l).
-/
import Idealize.ShloMosaic.Lib.ValueIdx
import Idealize.ShloMosaic.PureOps.Ideal.Laws

noncomputable section

open scoped BigOperators

namespace Cert.LibTransDot

open Idealize.ShloMosaic Idealize.ShloMosaic.ValueIdx

variable {M K N : ℕ}

/-- Row coordinate of the left operand's index: the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  have hb : ¬(0 : Fin 2) ∈ (DotDims.transposedRhs M K N).lhsBatch := List.not_mem_nil
  have hn : (0 : Fin 2) ∈ (DotDims.transposedRhs M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- Row coordinate of the right operand's index: the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  have hb : ¬(0 : Fin 2) ∈ (DotDims.transposedRhs M K N).rhsBatch := List.not_mem_nil
  have hn : (0 : Fin 2) ∈ (DotDims.transposedRhs M K N).rhsNonContracting := List.mem_singleton.mpr rfl
  rw [dif_neg hb, dif_pos hn]
  rfl

/-- Column coordinate of the right operand's index: the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum at entry (p, q), re-indexed by the one contraction coordinate. -/
theorem contr_sum (lhs : (⟨2, ![M, K]⟩ : Shape).Idx → EReal) (rhs : (⟨2, ![N, K]⟩ : Shape).Idx → EReal)
    (p : Fin M) (q : Fin N) :
    (∑ k : (DotDims.transposedRhs M K N).contr.Idx,
        lhs ((DotDims.transposedRhs M K N).lhsIdx (ix2 p q) k) * rhs ((DotDims.transposedRhs M K N).rhsIdx (ix2 p q) k))
      = ∑ l : Fin K, lhs (ix2 p l) * rhs (ix2 q l) := by
  rw [← Equiv.sum_comp (contrEquiv1 (DotDims.transposedRhs M K N) K rfl rfl).symm]
  refine Finset.sum_congr rfl fun l _ => ?_
  have hl := contrEquiv1_symm_val (DotDims.transposedRhs M K N) K rfl rfl l
  have el : (DotDims.transposedRhs M K N).lhsIdx (ix2 p q) ((contrEquiv1 (DotDims.transposedRhs M K N) K rfl rfl).symm l) = ix2 p l :=
    funext fun a => Fin.ext (by
      match a with
      | ⟨0, _⟩ => exact lhs_row _ _
      | ⟨1, _⟩ => exact (lhs_col _ _).trans hl)
  have er : (DotDims.transposedRhs M K N).rhsIdx (ix2 p q) ((contrEquiv1 (DotDims.transposedRhs M K N) K rfl rfl).symm l) = ix2 q l :=
    funext fun a => Fin.ext (by
      match a with
      | ⟨0, _⟩ => exact rhs_row _ _
      | ⟨1, _⟩ => exact (rhs_col _ _).trans hl)
  rw [el, er]

/-- A matmul of these dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant (F := Ideal) ⟨2, ![M, N]⟩ .f32 0x00000000#32) (ix2 p q)
      = ∑ l : Fin K, lhs (ix2 p l) * rhs (ix2 q l) :=
  (Ideal.matmul_constant_zero_apply (DotDims.transposedRhs M K N) prec lhs rhs (ix2 p q)).trans (contr_sum lhs rhs p q)

/-- A host dot_general of these dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ l : Fin K, lhs (ix2 p l) * rhs (ix2 q l) :=
  (Ideal.dotGeneral_apply (DotDims.transposedRhs M K N) prec sched lhs rhs (ix2 p q)).trans (contr_sum lhs rhs p q)

end Cert.LibTransDot

end
-- ==== Proof.Region1Payload.lean ====
/-
  The second kernel's three stored values, read entry by entry on the extended reals.

  On one grid point the body holds a block x0 of 1024 scaled anchor rows, a tile x1 of 512 scaled anchor rows, the
  labels of the block's rows as a column x2 and of the tile's rows as a row x3. Entry (r, q) of the 1024 × 512 tile of
  masked distances is +∞ where label r of the block equals label q of the tile, and √(max(2 − 2·⟨x0 r, x1 q⟩, 0))
  elsewhere; the inner product is the contraction of both operands along their 128 columns. The scratch column's
  update at row r is the smaller of its old entry and the minimum of row r of that tile, started from +∞. The loss
  column at row r is max(d − s·s + ½, 0) with s the scratch entry and d the distance-to-positive entry. The layout
  operations in between (casts to the same shape, a vector cast to a column, a column and a row broadcast over the
  tile) only move entries.
-/
import proofs.«170105_j8323646619735_1_alg».proof.Proof.Gen.KernelIdeal.Skeleton
import proofs.«170105_j8323646619735_1_alg».proof.Proof.SpecTiles
import proofs.«170105_j8323646619735_1_alg».proof.Proof.LibColumn
import proofs.«170105_j8323646619735_1_alg».proof.Proof.LibTransDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.R1P

open Cert.KernelIdeal Cert.KernelIdeal.Gen
open Idealize.ShloMosaic Idealize.ShloMosaic.ValueIdx

/-- A minimum-reduction over ONE axis, at a reduced index: the fold of min, from the accumulator's value, over that
    axis's coordinates. -/
theorem minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Minimum over the columns of an a × b matrix, at row r. -/
theorem min_cols_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun c => src (ix2 r c)) :=
  (minimumf_single src acc h hφ hacc (ix1 r)).trans
    (Finset.fold_congr fun c _ => congrArg src
      (funext fun ax => Fin.ext (by match ax with | ⟨0, _⟩ => rfl | ⟨1, _⟩ => rfl)))

/-- The column the scratch is reset to: +∞ in every row. -/
theorem pay2_at (r : Fin 1024) (z : Fin 1) : k1_pay2 (F := Ideal) (ix2 r z) = Cert.Spec.inf := by
  unfold k1_pay2
  exact (congrFun (shapeCast_self _ shapeCasts_S1024x1_S1024x1) (ix2 r z)).trans rfl

/-- The loss column at row r. -/
theorem pay1_at (s s' x4 : Vec Ideal S1024x1 .f32) (r : Fin 1024) (z : Fin 1) :
    k1_pay1 (F := Ideal) s s' x4 (ix2 r z)
      = max (x4 (ix2 r z) - s (ix2 r z) * s' (ix2 r z) + Cert.Spec.half) Cert.Spec.zero := by
  unfold k1_pay1
  show max (shapeCast S1024x1 x4 shapeCasts_S1024x1_S1024x1 (ix2 r z) - s (ix2 r z) * s' (ix2 r z)
    + Ideal.ofBits .f32 0x3F000000#32) (Ideal.ofBits .f32 0x00000000#32) = _
  rw [shapeCast_self]
  rfl

/-- Entry (r, q) of the tile of masked distances. -/
def tileAt (x0 : Vec Ideal S1024x128 .bf16) (x1 : Vec Ideal S512x128 .bf16) (x2 : Vec Ideal S1024x1 .i32)
    (x3 : Vec Ideal S1x512 .i32) (r : Fin 1024) (q : Fin 512) : EReal :=
  Scalar.select (IntOp.cmpi .eq (x2 (ix2 r (0 : Fin 1))) (x3 (ix2 (0 : Fin 1) q))) Cert.Spec.inf
    (Ideal.sqrt (max (Cert.Spec.two - Cert.Spec.two * ∑ d : Fin 128, x0 (ix2 r d) * x1 (ix2 q d)) Cert.Spec.zero))

/-- The kernel's contraction, into a zero accumulator, of a 1024 × 128 block with a 512 × 128 tile along their columns:
    entry (r, q) is the inner product of row r of the block and row q of the tile. -/
theorem matmul_at (x0 : FVec Ideal S1024x128 .bf16) (x1 : FVec Ideal S512x128 .bf16) (r : Fin 1024) (q : Fin 512) :
    matmul dot_S1024x128_S512x128_S1024x512_1_1_0_0_n_n none x0 x1 (constant (F := Ideal) S1024x512 .f32 0x00000000#32) (ix2 r q)
      = ∑ d : Fin 128, x0 (ix2 r d) * x1 (ix2 q d) :=
  Cert.LibTransDot.matmul_zero_apply (M := 1024) (K := 128) (N := 512) none x0 x1 r q

/-- When row r of the block is row R of an array u, row q of the tile is row Q of the same array, and the two label
    entries are the column's at R and the row's at Q, the tile's entry is the masked distance between rows R and Q. -/
theorem tileAt_eq (x0 : Vec Ideal S1024x128 .bf16) (x1 : Vec Ideal S512x128 .bf16) (x2 : Vec Ideal S1024x1 .i32)
    (x3 : Vec Ideal S1x512 .i32) (u : Cert.Spec.Mat) (lc : Cert.Spec.LabCol) (lr : Cert.Spec.LabRow)
    (r : Fin 1024) (q : Fin 512) (R Q : Fin 8192)
    (h0 : ∀ d : Fin 128, x0 (ix2 r d) = u (ix2 R d)) (h1 : ∀ d : Fin 128, x1 (ix2 q d) = u (ix2 Q d))
    (h2 : x2 (ix2 r (0 : Fin 1)) = lc (ix2 R (0 : Fin 1))) (h3 : x3 (ix2 (0 : Fin 1) q) = lr (ix2 (0 : Fin 1) Q)) :
    tileAt x0 x1 x2 x3 r q = Cert.Spec.maskedOf u lc lr R Q := by
  unfold tileAt Cert.Spec.maskedOf Cert.Spec.distOf Cert.Spec.gramOf
  rw [h2, h3]
  simp only [h0, h1]

/-- The scratch column's update at row r. -/
theorem pay3_at (x0 : Vec Ideal S1024x128 .bf16) (x1 : Vec Ideal S512x128 .bf16) (x2 : Vec Ideal S1024x1 .i32)
    (x3 : Vec Ideal S1x512 .i32) (xs : Vec Ideal S1024x1 .f32) (r : Fin 1024) (z : Fin 1) :
    k1_pay3 (F := Ideal) x0 x1 x2 x3 xs (ix2 r z)
      = min (xs (ix2 r z)) ((Finset.univ : Finset (Fin 512)).fold min Cert.Spec.inf (fun q => tileAt x0 x1 x2 x3 r q)) := by
  unfold k1_pay3
  refine (congrFun (shapeCast_self _ shapeCasts_S1024x1_S1024x1) (ix2 r z)).trans ?_
  refine congrArg (min (xs (ix2 r z))) ?_
  refine (Cert.LibColumn.shapeCast_a_a1_apply _ shapeCasts_S1024_S1024x1 r z).trans ?_
  have key : ∀ (src : FVec Ideal S1024x512 .f32),
      multiReduction .minimumf [1] S1024 src 0x7F800000#32 reduces_S1024x512_S1024 (.inl rfl) rfl (ix1 r)
        = (Finset.univ : Finset (Fin 512)).fold min (Ideal.ofBits .f32 0x7F800000#32) (fun c => src (ix2 r c)) :=
    fun src => min_cols_apply src 0x7F800000#32 reduces_S1024x512_S1024 (.inl rfl) rfl r
  refine (key _).trans ?_
  refine Finset.fold_congr fun q _ => ?_
  unfold tileAt
  show Scalar.select
      (IntOp.cmpi .eq
        (broadcastTo S1024x512 (shapeCast S1024x1 x2 shapeCasts_S1024x1_S1024x1) broadcasts_S1024x1_S1024x512 (ix2 r q))
        (broadcastTo S1024x512 (shapeCast S1x512 x3 shapeCasts_S1x512_S1x512) broadcasts_S1x512_S1024x512 (ix2 r q)))
      (Ideal.ofBits .f32 0x7F800000#32)
      (Ideal.sqrt (max (Ideal.ofBits .f32 0x40000000#32 - Ideal.ofBits .f32 0x40000000#32
        * matmul dot_S1024x128_S512x128_S1024x512_1_1_0_0_n_n none (shapeCast S1024x128 x0 shapeCasts_S1024x128_S1024x128)
            (shapeCast S512x128 x1 shapeCasts_S512x128_S512x128) (constant (F := Ideal) S1024x512 .f32 0x00000000#32) (ix2 r q))
        (Ideal.ofBits .f32 0x00000000#32))) = _
  rw [shapeCast_self, shapeCast_self, shapeCast_self, shapeCast_self, Cert.LibColumn.broadcastTo_a1_ab_apply,
    broadcastTo_1b_ab_apply, matmul_at]
  rfl

end Cert.KernelIdeal.R1P

end
-- ==== Proof.LibMinFold.lean ====
/-
  A minimum taken block by block is the minimum taken in one pass.

  For a start value c and a sequence f of extended reals, take the first T·s terms in T consecutive blocks of s:
  the running value starts at c and, at block k, becomes the smaller of itself and the block's own minimum
  (started from c again). After T blocks the running value is the minimum, started from c, of all T·s terms.
  Both sides are characterised by the same lower bounds: x lies below either one exactly when x ≤ c and x ≤ f j
  for every j < T·s, an index j being t·s + r with t = j / s and r = j % s.
-/
import Idealize.ShloMosaic.PureOps.Ideal

namespace Cert.LibMinFold

/-- The running minimum over consecutive blocks of s terms of f: it starts at c, and block k contributes the
    minimum, started from c, of the terms f (k·s), …, f (k·s + s − 1). -/
noncomputable def acc (c : EReal) (s : ℕ) (f : ℕ → EReal) : ℕ → EReal
  | 0 => c
  | k + 1 => min (acc c s f k) ((Finset.univ : Finset (Fin s)).fold min c (fun r => f (k * s + r.val)))

/-- The lower bounds of a minimum over the first n terms, started from c: those of c and of every term. -/
theorem le_fold_iff (x c : EReal) (n : ℕ) (f : ℕ → EReal) :
    x ≤ (Finset.univ : Finset (Fin n)).fold min c (fun j => f j.val) ↔ x ≤ c ∧ ∀ j, j < n → x ≤ f j := by
  rw [Finset.le_fold_min]
  exact and_congr_right fun _ =>
    ⟨fun h j hj => h ⟨j, hj⟩ (Finset.mem_univ _), fun h j _ => h j.val j.isLt⟩

/-- The lower bounds of the running minimum after k blocks: those of c and of every term of the first k blocks. -/
theorem le_acc_iff (x c : EReal) (s : ℕ) (f : ℕ → EReal) (k : ℕ) :
    x ≤ acc c s f k ↔ x ≤ c ∧ ∀ t, t < k → ∀ r, r < s → x ≤ f (t * s + r) := by
  induction k with
  | zero => exact ⟨fun h => ⟨h, fun t ht => absurd ht (Nat.not_lt_zero t)⟩, fun h => h.1⟩
  | succ k ih =>
    show x ≤ min (acc c s f k) _ ↔ _
    rw [le_min_iff, ih, le_fold_iff x c s (fun r => f (k * s + r))]
    constructor
    · rintro ⟨⟨hc, hlo⟩, -, hk⟩
      refine ⟨hc, fun t ht r hr => ?_⟩
      rcases Nat.lt_succ_iff_lt_or_eq.1 ht with h | h
      · exact hlo t h r hr
      · subst h; exact hk r hr
    · rintro ⟨hc, h⟩
      exact ⟨⟨hc, fun t ht => h t (Nat.lt_succ_of_lt ht)⟩, hc, fun r hr => h k (Nat.lt_succ_self k) r hr⟩

/-- The minimum over T·s terms taken in T blocks of s is the minimum taken in one pass. -/
theorem acc_eq_fold (c : EReal) (T s : ℕ) (f : ℕ → EReal) :
    acc c s f T = (Finset.univ : Finset (Fin (T * s))).fold min c (fun j => f j.val) := by
  refine eq_of_forall_le_iff fun x => ?_
  rw [le_acc_iff, le_fold_iff]
  refine and_congr_right fun _ => ⟨fun h j hj => ?_, fun h t ht r hr => h _ ?_⟩
  · have hs : 0 < s := Nat.pos_of_ne_zero (by rintro rfl; simp at hj)
    have ht : j / s < T := Nat.div_lt_of_lt_mul (by rwa [Nat.mul_comm] at hj)
    have := h (j / s) ht (j % s) (Nat.mod_lt j hs)
    rwa [Nat.div_add_mod'] at this
  · calc t * s + r < t * s + s := Nat.add_lt_add_left hr _
      _ = (t + 1) * s := (Nat.succ_mul t s).symm
      _ ≤ T * s := Nat.mul_le_mul_right s ht

/-- Sixteen blocks of 512 against one pass over 8192. -/
theorem acc_16_512 (c : EReal) (f : ℕ → EReal) :
    acc c 512 f 16 = (Finset.univ : Finset (Fin 8192)).fold min c (fun j => f j.val) :=
  acc_eq_fold c 16 512 f

end Cert.LibMinFold
-- ==== Proof.Region1Value.lean ====
/-
  What the second pallas_call leaves in its output column, on the extended reals.

  Grid point t works on row block t / 16 (rows 1024·(t / 16) … of the scaled anchor array, of the label column and of
  the distance column) against column tile t % 16 (rows 512·(t % 16) … of the same scaled anchor array, and that
  stretch of the label row). Entry (r, q) of the point's tile of masked distances is therefore the masked distance
  between array rows R = 1024·(t / 16) + r and Q = 512·(t % 16) + q. Along a row block the scratch column at row r is
  the running minimum of row R's masked distances over the tiles seen so far, restarted from +∞ at the block's first
  tile; after the sixteenth tile it is the minimum over all 8192 columns, a minimum taken in sixteen blocks of 512
  being the minimum taken in one pass. The loss column stored at that last tile is then the loss of rows
  1024·(t / 16) …, and the eight row blocks tile the 8192 rows: row R is written back at point 16·(R / 1024) + 15.
-/
import proofs.«170105_j8323646619735_1_alg».proof.Proof.Region1
import proofs.«170105_j8323646619735_1_alg».proof.Proof.Region1Payload
import proofs.«170105_j8323646619735_1_alg».proof.Proof.SpecTiles
import proofs.«170105_j8323646619735_1_alg».proof.Proof.LibMinFold
import Idealize.ShloMosaic.Lib.Pipeline.Value
import Idealize.ShloMosaic.Lib.ValueIdx

noncomputable section

open scoped BigOperators

namespace Cert.KernelIdeal.R1V

open Cert.KernelIdeal Cert.KernelIdeal.Gen Cert.KernelIdeal.R1 Cert.KernelIdeal.R1P
open Idealize.ShloMosaic Idealize.ShloMosaic.TcCoe Idealize.ShloMosaic.ValueIdx Idealize.SL.Sem
open Idealize.ShloMosaic.Pipeline (Dat)

/-- Row R's masked distances to the 8192 rows as a sequence on the naturals, +∞ past the end. -/
def rowSeq (u : Cert.Spec.Mat) (lc : Cert.Spec.LabCol) (lr : Cert.Spec.LabRow) (R : Fin 8192) : ℕ → EReal :=
  fun j => if h : j < 8192 then Cert.Spec.maskedOf u lc lr R ⟨j, h⟩ else Cert.Spec.inf

/-- The minimum of that sequence's first 8192 terms is the distance to the nearest row of another label. -/
theorem rowSeq_fold (u : Cert.Spec.Mat) (lc : Cert.Spec.LabCol) (lr : Cert.Spec.LabRow) (R : Fin 8192) :
    (Finset.univ : Finset (Fin 8192)).fold min Cert.Spec.inf (fun j => rowSeq u lc lr R j.val)
      = Cert.Spec.nearestOf u lc lr R := by
  unfold Cert.Spec.nearestOf
  refine Finset.fold_congr fun j _ => ?_
  unfold rowSeq
  rw [dif_pos j.isLt]

-- the buffer contents when the region is entered
variable (V : (c : Dev nD) → (b : Ref sig .tc) → Buf (Elt Ideal) ((c : Thread nD τ).loc b))

/-- The printed index maps, decided once over the grid: the row-block windows are on block row t / 16, the two tile
    windows on tile t % 16. -/
theorem idx_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0
    ∧ win1_5.index t (0 : Fin 2) = t.val / 16 ∧ win1_5.index t (1 : Fin 2) = 0 :=
  (by decide +kernel : ∀ t : Fin grid1.N, _)

/-! ## Each window's block entry is an array entry -/

/-- Entry (r, d) of the row block of scaled anchors is entry (1024·(t / 16) + r, d) of the array. -/
theorem blk0_at (c : Dev nD) (t : Fin cfg1.N) (r : Fin 1024) (d : Fin 128) (R : Fin 8192)
    (hR : R.val = 1024 * (t.val / 16) + r.val) :
    (iblk1 V c 0 t : Vec Ideal S1024x128 .bf16) (ix2 r d) = (V c main_v0_0 : S8192x128.Idx → EReal) (ix2 R d) := by
  obtain ⟨e0, e1, -⟩ := idx_facts t
  unfold iblk1
  rw [View.read_apply]
  show V c main_v0_0 _ = V c main_v0_0 _
  refine congrArg (V c main_v0_0) ?_
  funext a; apply Fin.ext
  match a with
  | ⟨0, _⟩ => show win1_0.index t (0 : Fin 2) * 1024 + 1 * r.val = R.val; rw [e0, hR]; omega
  | ⟨1, _⟩ => show win1_0.index t (1 : Fin 2) * 128 + 1 * d.val = d.val; rw [e1]; omega

/-- Entry (q, d) of the tile of scaled anchors is entry (512·(t % 16) + q, d) of the same array. -/
theorem blk1_at (c : Dev nD) (t : Fin cfg1.N) (q : Fin 512) (d : Fin 128) (Q : Fin 8192)
    (hQ : Q.val = 512 * (t.val % 16) + q.val) :
    (iblk1 V c 1 t : Vec Ideal S512x128 .bf16) (ix2 q d) = (V c main_v0_0 : S8192x128.Idx → EReal) (ix2 Q d) := by
  obtain ⟨-, -, e2, e3, -⟩ := idx_facts t
  unfold iblk1
  rw [View.read_apply]
  show V c main_v0_0 _ = V c main_v0_0 _
  refine congrArg (V c main_v0_0) ?_
  funext a; apply Fin.ext
  match a with
  | ⟨0, _⟩ => show win1_1.index t (0 : Fin 2) * 512 + 1 * q.val = Q.val; rw [e2, hQ]; omega
  | ⟨1, _⟩ => show win1_1.index t (1 : Fin 2) * 128 + 1 * d.val = d.val; rw [e3]; omega

/-- Entry (r, 0) of the label column's block is the column's entry at row 1024·(t / 16) + r. -/
theorem blk2_at (c : Dev nD) (t : Fin cfg1.N) (r : Fin 1024) (z : Fin 1) (R : Fin 8192)
    (hR : R.val = 1024 * (t.val / 16) + r.val) :
    (iblk1 V c 2 t : Vec Ideal S1024x1 .i32) (ix2 r z) = (V c main_v1 : S8192x1.Idx → BitVec 32) (ix2 R (0 : Fin 1)) := by
  obtain ⟨-, -, -, -, e4, e5, -⟩ := idx_facts t
  have hz := z.isLt
  unfold iblk1
  rw [View.read_apply]
  show V c main_v1 _ = V c main_v1 _
  refine congrArg (V c main_v1) ?_
  funext a; apply Fin.ext
  match a with
  | ⟨0, _⟩ => show win1_2.index t (0 : Fin 2) * 1024 + 1 * r.val = R.val; rw [e4, hR]; omega
  | ⟨1, _⟩ => show win1_2.index t (1 : Fin 2) * 1 + 1 * z.val = 0; rw [e5]; omega

/-- Entry (0, q) of the label row's tile is the row's entry at column 512·(t % 16) + q. -/
theorem blk3_at (c : Dev nD) (t : Fin cfg1.N) (z : Fin 1) (q : Fin 512) (Q : Fin 8192)
    (hQ : Q.val = 512 * (t.val % 16) + q.val) :
    (iblk1 V c 3 t : Vec Ideal S1x512 .i32) (ix2 z q) = (V c main_v2 : S1x8192.Idx → BitVec 32) (ix2 (0 : Fin 1) Q) := by
  obtain ⟨-, -, -, -, -, -, e6, e7, -⟩ := idx_facts t
  have hz := z.isLt
  unfold iblk1
  rw [View.read_apply]
  show V c main_v2 _ = V c main_v2 _
  refine congrArg (V c main_v2) ?_
  funext a; apply Fin.ext
  match a with
  | ⟨0, _⟩ => show win1_3.index t (0 : Fin 2) * 1 + 1 * z.val = 0; rw [e6]; omega
  | ⟨1, _⟩ => show win1_3.index t (1 : Fin 2) * 512 + 1 * q.val = Q.val; rw [e7, hQ]; omega

/-- Entry (r, 0) of the distance column's block is the column's entry at row 1024·(t / 16) + r. -/
theorem blk4_at (c : Dev nD) (t : Fin cfg1.N) (r : Fin 1024) (z : Fin 1) (R : Fin 8192)
    (hR : R.val = 1024 * (t.val / 16) + r.val) :
    (iblk1 V c 4 t : Vec Ideal S1024x1 .f32) (ix2 r z) = (V c main_v0_1 : S8192x1.Idx → EReal) (ix2 R (0 : Fin 1)) := by
  obtain ⟨-, -, -, -, -, -, -, -, e8, e9, -⟩ := idx_facts t
  have hz := z.isLt
  unfold iblk1
  rw [View.read_apply]
  show V c main_v0_1 _ = V c main_v0_1 _
  refine congrArg (V c main_v0_1) ?_
  funext a; apply Fin.ext
  match a with
  | ⟨0, _⟩ => show win1_4.index t (0 : Fin 2) * 1024 + 1 * r.val = R.val; rw [e8, hR]; omega
  | ⟨1, _⟩ => show win1_4.index t (1 : Fin 2) * 1 + 1 * z.val = 0; rw [e9]; omega

/-! ## The running minimum along a row block -/

/-- Entry (r, q) of point t's tile of masked distances is term (t % 16)·512 + q of row R's sequence. -/
theorem tile_at (c : Dev nD) (t : Fin cfg1.N) (r : Fin 1024) (q : Fin 512) (R : Fin 8192)
    (hR : R.val = 1024 * (t.val / 16) + r.val) :
    tileAt (iblk1 V c 0 t) (iblk1 V c 1 t) (iblk1 V c 2 t) (iblk1 V c 3 t) r q
      = rowSeq (V c main_v0_0) (V c main_v1) (V c main_v2) R (t.val % 16 * 512 + q.val) := by
  have hq := q.isLt
  have hj : t.val % 16 * 512 + q.val < 8192 := by omega
  unfold rowSeq
  rw [dif_pos hj]
  exact tileAt_eq (iblk1 V c 0 t) (iblk1 V c 1 t) (iblk1 V c 2 t) (iblk1 V c 3 t) (V c main_v0_0) (V c main_v1) (V c main_v2)
    r q R ⟨t.val % 16 * 512 + q.val, hj⟩ (fun d => blk0_at V c t r d R hR)
    (fun d => blk1_at V c t q d ⟨t.val % 16 * 512 + q.val, hj⟩ (by show t.val % 16 * 512 + q.val = 512 * (t.val % 16) + q.val; omega))
    (blk2_at V c t r 0 R hR) (blk3_at V c t 0 q ⟨t.val % 16 * 512 + q.val, hj⟩ (by show t.val % 16 * 512 + q.val = 512 * (t.val % 16) + q.val; omega))

/-- One update of the scratch column: from the running minimum after k tiles to the one after k + 1. -/
theorem scr_step (c : Dev nD) (t : Fin cfg1.N) (r : Fin 1024) (z : Fin 1) (R : Fin 8192)
    (hR : R.val = 1024 * (t.val / 16) + r.val) (prev : Vec Ideal S1024x1 .f32)
    (hprev : prev (ix2 r z)
      = Cert.LibMinFold.acc Cert.Spec.inf 512 (rowSeq (V c main_v0_0) (V c main_v1) (V c main_v2) R) (t.val % 16)) :
    k1_pay3 (F := Ideal) (iblk1 V c 0 t) (iblk1 V c 1 t) (iblk1 V c 2 t) (iblk1 V c 3 t) prev (ix2 r z)
      = Cert.LibMinFold.acc Cert.Spec.inf 512 (rowSeq (V c main_v0_0) (V c main_v1) (V c main_v2) R) (t.val % 16 + 1) := by
  refine (pay3_at (iblk1 V c 0 t) (iblk1 V c 1 t) (iblk1 V c 2 t) (iblk1 V c 3 t) prev r z).trans ?_
  show _ = min (Cert.LibMinFold.acc Cert.Spec.inf 512 (rowSeq (V c main_v0_0) (V c main_v1) (V c main_v2) R) (t.val % 16))
    ((Finset.univ : Finset (Fin 512)).fold min Cert.Spec.inf
      (fun q => rowSeq (V c main_v0_0) (V c main_v1) (V c main_v2) R (t.val % 16 * 512 + q.val)))
  rw [hprev]
  exact congrArg (min _) (Finset.fold_congr fun q _ => tile_at V c t r q R hR)

/-- The scratch column after position n, at row r: the running minimum of row R's masked distances over the
    n % 16 + 1 tiles of its row block seen so far. -/
theorem scr_at (c : Dev nD) : ∀ (n : ℕ) (hn : n < cfg1.N) (r : Fin 1024) (z : Fin 1) (R : Fin 8192),
    R.val = 1024 * (n / 16) + r.val →
    scrAt V c n hn (ix2 r z)
      = Cert.LibMinFold.acc Cert.Spec.inf 512 (rowSeq (V c main_v0_0) (V c main_v1) (V c main_v2) R) (n % 16 + 1) := by
  intro n
  induction n with
  | zero =>
    intro hn r z R hR
    rw [scrAt_first V c ⟨0, hn⟩ rfl]
    exact scr_step V c ⟨0, hn⟩ r z R hR (k1_pay2 (F := Ideal)) (pay2_at r z)
  | succ n ih =>
    intro hn r z R hR
    by_cases h : (n + 1) % 16 = 0
    · rw [scrAt_first V c ⟨n + 1, hn⟩ h]
      have hs := scr_step V c ⟨n + 1, hn⟩ r z R hR (k1_pay2 (F := Ideal))
        (by show _ = Cert.LibMinFold.acc _ _ _ ((n + 1) % 16); rw [h]; exact pay2_at r z)
      exact hs
    · rw [scrAt_next V c ⟨n + 1, hn⟩ h]
      have hprev := ih (Nat.lt_of_succ_lt hn) r z R (by omega)
      have hk : n % 16 + 1 = (n + 1) % 16 := by omega
      rw [hk] at hprev
      exact scr_step V c ⟨n + 1, hn⟩ r z R hR (scrAt V c n (Nat.lt_of_succ_lt hn)) hprev

/-! ## The stored loss column and the output array -/

/-- At the last tile of a row block the stored column is the loss of the block's rows. -/
theorem out_at (c : Dev nD) (t : Fin cfg1.N) (ht : t.val % 16 = 15) (r : Fin 1024) (z : Fin 1) (R : Fin 8192)
    (hR : R.val = 1024 * (t.val / 16) + r.val) :
    outAt V c t.val t.isLt (ix2 r z)
      = Cert.Spec.lossOf (V c main_v0_0) (V c main_v0_1) (V c main_v1) (V c main_v2) R := by
  unfold outAt
  refine (pay1_at (scrAt V c t.val t.isLt) (scrAt V c t.val t.isLt) (iblk1 V c 4 ⟨t.val, t.isLt⟩) r z).trans ?_
  have hs := scr_at V c t.val t.isLt r z R hR
  rw [ht, Cert.LibMinFold.acc_16_512, rowSeq_fold] at hs
  rw [hs]
  have h4 := blk4_at V c t r z R hR
  unfold Cert.Spec.lossOf
  exact congrArg (fun w => max (w - Cert.Spec.nearestOf (V c main_v0_0) (V c main_v1) (V c main_v2) R
    * Cert.Spec.nearestOf (V c main_v0_0) (V c main_v1) (V c main_v2) R + Cert.Spec.half) Cert.Spec.zero) h4

/-- What a last-tile point writes back is its row block of the loss column. -/
theorem flushed5_eq (c : Dev nD) (t : Fin cfg1.N) (ht : t.val % 16 = 15) :
    (dat1 (F := Ideal) V c).flushed 5 t
      = ((cfg1.win 5).blk t).view.read (Elt Ideal)
          (fun j : S8192x1.Idx => Cert.Spec.lossOf (V c main_v0_0) (V c main_v0_1) (V c main_v1) (V c main_v2) (j 0)) := by
  show (cfg1.win 5).cut (grid1.coords t) ((dat1 V c).after 5 t) = _
  rw [after1_5]
  obtain ⟨-, -, -, -, -, -, -, -, -, -, e10, e11⟩ := idx_facts t
  funext y
  obtain ⟨r, z, rfl⟩ : ∃ (r : Fin 1024) (z : Fin 1), y = ix2 r z := ⟨y 0, y 1, eq_ix2 y⟩
  show outAt V c t.val t.isLt (ix2 r z)
    = Cert.Spec.lossOf (V c main_v0_0) (V c main_v0_1) (V c main_v1) (V c main_v2)
        ((((cfg1.win 5).blk t).view.emb (ix2 r z)) 0)
  refine out_at V c t ht r z _ ?_
  show win1_5.index t (0 : Fin 2) * 1024 + 1 * r.val = 1024 * (t.val / 16) + r.val
  rw [e10]; omega

/-- An index of the output column is in point t's block iff each coordinate is in the block's range on its axis. -/
theorem mem_blk5 (t : Fin cfg1.N) (i : S8192x1.Idx) :
    i ∈ ((cfg1.win 5).blk t).view.set ↔ ∀ a : Fin 2, win1_5.index t a * S1024x1.size a ≤ (i a).val
      ∧ (i a).val < win1_5.index t a * S1024x1.size a + S1024x1.size a := by
  show i ∈ ((View.whole main_v3).slice (win1_5.rect t)).set ↔ _
  rw [View.set_slice_whole, Rect.mem_set_unit]
  exact Iff.rfl

/-- Row R is written back at the last tile of its row block, point 16·(R / 1024) + 15. -/
theorem cover5 (i : S8192x1.Idx) : ∃ t : Fin cfg1.N, (cfg1.win 5).flush t = true ∧ i ∈ ((cfg1.win 5).blk t).view.set := by
  have hN : cfg1.N = 128 := N_1
  have hi0 : (i 0).val < 8192 := (i 0).isLt
  have hi1 : (i 1).val < 1 := (i 1).isLt
  obtain ⟨t, ht⟩ : ∃ t : Fin cfg1.N, t.val = 16 * ((i 0).val / 1024) + 15 :=
    ⟨⟨16 * ((i 0).val / 1024) + 15, by rw [hN]; omega⟩, rfl⟩
  obtain ⟨-, -, -, -, -, -, -, -, -, -, e10, e11⟩ := idx_facts t
  refine ⟨t, (flush1_5 t).mpr (by omega), ?_⟩
  rw [mem_blk5]
  intro a
  match a with
  | ⟨0, _⟩ =>
    show win1_5.index t (0 : Fin 2) * 1024 ≤ (i 0).val ∧ (i 0).val < win1_5.index t (0 : Fin 2) * 1024 + 1024
    rw [e10]; omega
  | ⟨1, _⟩ =>
    show win1_5.index t (1 : Fin 2) * 1 ≤ (i 1).val ∧ (i 1).val < win1_5.index t (1 : Fin 2) * 1 + 1
    rw [e11]; omega

/-- After the region the output column holds, at (i, 0), the loss of row i as a function of the region's four input
    arrays. -/
theorem arr1_5 (c : Dev nD) :
    (Cert.KernelIdeal.R1.dat1 (F := Ideal) V c).arrAt 5 cfg1.N
      = fun j : S8192x1.Idx => Cert.Spec.lossOf (V c main_v0_0) (V c main_v0_1) (V c main_v1) (V c main_v2) (j 0) :=
  (dat1 (F := Ideal) V c).arrAt_eq_of_cover 5 _ (fun t ht => flushed5_eq V c t ((flush1_5 t).mp ht)) cover5

end Cert.KernelIdeal.R1V

end
-- ==== Proof.HostTail.lean ====
/-
  The host operations around the two kernels, read at the ideal instance.

  After the second kernel the loss column [8192, 1] is summed over both axes from the zero word and divided by the word
  8192.0: at an extended-real column whose entry at (i, 0) is g i this is (∑_i g i) / 8192. Before it the labels are
  re-laid as a column [8192, 1] and as a row [1, 8192]: entry (i, 0) of the column and entry (0, j) of the row are the
  labels at i and at j.
-/
import proofs.«170105_j8323646619735_1_alg».proof.Proof.Gen.KernelIdeal.Launch
import proofs.«170105_j8323646619735_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.Tail

open Cert.KernelIdeal Cert.KernelIdeal.Gen
open Idealize.ShloMosaic Idealize.ShloMosaic.TcCoe Idealize.ShloMosaic.ValueIdx Idealize.SL.Sem Idealize.ShloMosaic.StableHlo

/-- A sum over the indices of an n × 1 array is the sum over its rows. -/
theorem sum_col {n : ℕ} (f : (⟨2, ![n, 1]⟩ : Shape).Idx → EReal) :
    ∑ j : (⟨2, ![n, 1]⟩ : Shape).Idx, f j = ∑ i : Fin n, f (ix2 i 0) := by
  rw [sum_idx2]
  exact Finset.sum_congr rfl fun i _ => by simp

/-- The mean of a column: the two-axis sum from the zero word, divided by the word 8192.0. -/
theorem mean_col (x : (⟨S8192x1, .f32⟩ : BufTy).Contents (Elt Ideal)) :
    Host.divf (F := Ideal) (Host.reduceAdd (F := Ideal) x (constant (F := Ideal) S_ .f32 0x00000000#32) reducesTo_S8192x1_S_d0_1 h_S_)
        (constant (F := Ideal) S_ .f32 0x46000000#32)
      = fun _ => Ideal.div (∑ i : Fin 8192, x (ix2 i 0)) Cert.Spec.count := by
  funext s
  simp only [Host.divf, Host.reduceAdd, Ideal.hostReduceAdd_def, Ideal.hostDivf_def]
  rw [Ideal.hostReduceAdd_total reducesTo_S8192x1_S_d0_1 (fun b => b.elim0) x _ s]
  simp only [constant, Ideal.ofBits_def, Ideal.ofBits_zero_f32, zero_add, Cert.Spec.count]
  rw [sum_col]

/-- The labels as a column: entry (i, z) is the label at i. -/
theorem labels_col (l : (⟨S8192, .i32⟩ : BufTy).Contents (Elt Ideal)) (i : Fin 8192) (z : Fin 1) :
    shapeCast S8192x1 l shapeCasts_S8192_S8192x1 (ix2 i z) = l (ix1 i) :=
  shapeCast_apply l shapeCasts_S8192_S8192x1 (ix2 i z) (ix1 i) (by
    rw [Shape.rowMajor_val_one, Shape.rowMajor_val_two]
    show i.val = i.val * 1 + z.val
    omega)

/-- The labels as a row: entry (z, j) is the label at j. -/
theorem labels_row (l : (⟨S8192, .i32⟩ : BufTy).Contents (Elt Ideal)) (z : Fin 1) (j : Fin 8192) :
    shapeCast S1x8192 l shapeCasts_S8192_S1x8192 (ix2 z j) = l (ix1 j) :=
  shapeCast_apply l shapeCasts_S8192_S1x8192 (ix2 z j) (ix1 j) (by
    rw [Shape.rowMajor_val_one, Shape.rowMajor_val_two]
    show j.val = z.val * 8192 + j.val
    omega)

/-! ## The host stretches over any buffer contents -/

/-- After the last stretch the result buffer holds the mean of the loss column's buffer. -/
theorem after_tail (W : Valuation τ sig (Elt Ideal)) :
    StableHlo.after (hostOps2 (F := Ideal)) W (Proc.devRef .tc main_v5)
      = Host.divf (F := Ideal) (Host.reduceAdd (F := Ideal) (W (Proc.devRef .tc main_v3)) (constant (F := Ideal) S_ .f32 0x00000000#32) reducesTo_S8192x1_S_d0_1 h_S_)
          (constant (F := Ideal) S_ .f32 0x46000000#32) := by
  after_results
  try rfl

/-- After the middle stretch the two label buffers hold the labels re-laid as a column and as a row. -/
theorem after_col (W : Valuation τ sig (Elt Ideal)) :
    StableHlo.after (hostOps1 (F := Ideal)) W (Proc.devRef .tc main_v1)
      = shapeCast S8192x1 (W (Proc.devRef .tc main_arg2)) shapeCasts_S8192_S8192x1 := by
  after_results
  try rfl

theorem after_row (W : Valuation τ sig (Elt Ideal)) :
    StableHlo.after (hostOps1 (F := Ideal)) W (Proc.devRef .tc main_v2)
      = shapeCast S1x8192 (W (Proc.devRef .tc main_arg2)) shapeCasts_S8192_S1x8192 := by
  after_results
  try rfl

end Cert.KernelIdeal.Tail

end
-- ==== Proof.KernelValue.lean ====
/-
  What the kernel's program leaves in its result buffer, at the ideal instance: the specification's mean loss of the
  three argument arrays.

  Reading the boundary contents back from the end: the result is the mean of the loss column the second kernel wrote;
  that column is the loss of the second kernel's four input arrays; of those, the scaled anchor rows and the distances
  to the positive are what the first kernel wrote from the two float arguments, and the two label layouts are the
  label argument re-laid by the host between the kernels.
-/
import proofs.«170105_j8323646619735_1_alg».proof.Proof.Run
import proofs.«170105_j8323646619735_1_alg».proof.Proof.Region0Value
import proofs.«170105_j8323646619735_1_alg».proof.Proof.Region1Value
import proofs.«170105_j8323646619735_1_alg».proof.Proof.HostTail
import proofs.«170105_j8323646619735_1_alg».proof.Proof.SpecTiles

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The middle host stretch writes only the two label layouts. -/
theorem mid_keeps (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 _ hostOps1_writes h

/-- Entering the second kernel, the scaled-anchor array holds every anchor row scaled to clamped unit length, -/
theorem entry_unit (c : Dev nD) :
    RunK.V2 m c main_v0_0 = fun j => Cert.Spec.unit (m ((c : Thread nD τ).loc main_arg0)) (j 0) (j 1) := by
  show StableHlo.after hostOps1 (RunK.W1 m c) (Proc.devRef .tc main_v0_0) = _
  rw [mid_keeps (RunK.W1 m c) main_v0_0 (by decide)]
  exact (RunK.W1_arr m c 2).trans (R0V.arr0_2 (RunK.V0 m) c)

/-- the distance column the squared distances to the scaled positive rows, -/
theorem entry_posd (c : Dev nD) :
    RunK.V2 m c main_v0_1
      = fun j => Cert.Spec.posd (m ((c : Thread nD τ).loc main_arg0)) (m ((c : Thread nD τ).loc main_arg1)) (j 0) := by
  show StableHlo.after hostOps1 (RunK.W1 m c) (Proc.devRef .tc main_v0_1) = _
  rw [mid_keeps (RunK.W1 m c) main_v0_1 (by decide)]
  exact (RunK.W1_arr m c 3).trans (R0V.arr0_3 (RunK.V0 m) c)

/-- and the two label buffers the labels as a column and as a row. -/
theorem entry_col (c : Dev nD) :
    RunK.V2 m c main_v1 = fun j => m ((c : Thread nD τ).loc main_arg2) (ix1 (j 0)) := by
  show StableHlo.after hostOps1 (RunK.W1 m c) (Proc.devRef .tc main_v1) = _
  rw [Tail.after_col, RunK.W1_of_ne m c main_arg2 (by decide)]
  funext j
  obtain ⟨i, z, rfl⟩ : ∃ (i : Fin 8192) (z : Fin 1), j = ix2 i z := ⟨j 0, j 1, eq_ix2 j⟩
  exact Tail.labels_col _ i z

theorem entry_row (c : Dev nD) :
    RunK.V2 m c main_v2 = fun j => m ((c : Thread nD τ).loc main_arg2) (ix1 (j 1)) := by
  show StableHlo.after hostOps1 (RunK.W1 m c) (Proc.devRef .tc main_v2) = _
  rw [Tail.after_row, RunK.W1_of_ne m c main_arg2 (by decide)]
  funext j
  obtain ⟨z, i, rfl⟩ : ∃ (z : Fin 1) (i : Fin 8192), j = ix2 z i := ⟨j 0, j 1, eq_ix2 j⟩
  exact Tail.labels_row _ z i

/-- At the end the result buffer holds the specification's mean loss of the argument arrays. -/
theorem result_value (c : Dev nD) :
    RunK.W4 m c (Proc.devRef .tc main_v5)
      = fun _ => Cert.Spec.result (m ((c : Thread nD τ).loc main_arg0)) (m ((c : Thread nD τ).loc main_arg1))
          (m ((c : Thread nD τ).loc main_arg2)) := by
  show StableHlo.after hostOps2 (RunK.W3 m c) (Proc.devRef .tc main_v5) = _
  rw [Tail.after_tail, RunK.W3_out, R1V.arr1_5, Tail.mean_col]
  funext s
  unfold Cert.Spec.result
  refine congrArg (fun x => Ideal.div x Cert.Spec.count) (Finset.sum_congr rfl fun i _ => ?_)
  show Cert.Spec.lossOf (RunK.V2 m c main_v0_0) (RunK.V2 m c main_v0_1) (RunK.V2 m c main_v1) (RunK.V2 m c main_v2) i = _
  rw [entry_unit, entry_posd, entry_col, entry_row]
  exact Cert.Spec.lossOf_eq _ _ _ i

end Cert.KernelIdeal.KV

end
-- ==== Proof.RefRead.lean ====
/-
  The reference program read index by index: each stage of the jnp program, at an index built from literal
  row and column coordinates, is the corresponding quantity of the specification; the last stage is the
  specification's result.
-/
import proofs.«170105_j8323646619735_1_alg».proof.Proof.Gen.ReferenceIdeal.Read
import proofs.«170105_j8323646619735_1_alg».proof.Proof.Spec

noncomputable section

open scoped BigOperators

namespace Cert.RefSide

open Cert.ReferenceIdeal Cert.ReferenceIdeal.Gen Cert.ReferenceIdeal.Read Idealize.ShloMosaic
  Idealize.ShloMosaic.ValueIdx

/-- The type the reference's two float arguments have: 8192 × 128 extended reals. -/
abbrev MatC : Type := (⟨S8192x128, .f32⟩ : BufTy).Contents (Elt Ideal)
/-- The type the reference's label argument has: 8192 words of 32 bits. -/
abbrev LabC : Type := (⟨S8192, .i32⟩ : BufTy).Contents (Elt Ideal)

/-! ## Index equations: the generated composed index maps at literal coordinates -/

theorem idx_row (i : Fin 8192) (k : Fin 128) : idx_main_v1 (ix1 i) k = ix2 i k :=
  funext fun a => Fin.ext (by match a with | ⟨0, _⟩ => rfl | ⟨1, _⟩ => rfl)

theorem idx_col1 (i : Fin 8192) (z : Fin 1) : idx_main_v2 (ix2 i z) = ix1 i :=
  funext fun a => Fin.ext (by match a with | ⟨0, _⟩ => rfl)

theorem idx_bc (i : Fin 8192) (d : Fin 128) : idx_main_v6 (ix2 i d) = ix2 i (0 : Fin 1) :=
  funext fun a => Fin.ext (by match a with | ⟨0, _⟩ => rfl | ⟨1, _⟩ => rfl)

/-! ## Row norms and scaled rows -/

/-- The sum of squares of row i, the zero initial value absorbed. -/
theorem sumsq_at (x : MatC) (i : Fin 8192) :
    val_main_v1 (F := Ideal) x (ix1 i) = ∑ d : Fin 128, x (ix2 i d) * x (ix2 i d) := by
  rw [val_main_v1_apply, val_main_cst_apply, Ideal.ofBits_def, Ideal.ofBits_zero_f32, zero_add]
  refine Finset.sum_congr rfl fun k _ => ?_
  rw [idx_row, val_main_v0_apply, Ideal.mulf_def]

/-- The clamped norm of row i, in the keepdims column. -/
theorem norm_at (x : MatC) (i : Fin 8192) (z : Fin 1) :
    val_main_v5 (F := Ideal) x (ix2 i z) = Cert.Spec.norm x i := by
  rw [val_main_v5_apply, val_main_v3_apply, val_main_v2_apply, idx_col1, sumsq_at, val_main_v4_apply,
    val_main_cst_0_apply, Ideal.maximumf_def, Ideal.hostUnary_sqrt_def, Ideal.ofBits_def]
  rfl

/-- The scaled row. -/
theorem unit_at (x : MatC) (i : Fin 8192) (d : Fin 128) :
    val_main_v7 (F := Ideal) x (ix2 i d) = Cert.Spec.unit x i d := by
  rw [val_main_v7_apply, val_main_v6_apply, idx_bc, norm_at, Ideal.hostDivf_def]
  rfl

/-- The positive array goes through the same operations as the anchor array (the program repeats them with
    fresh names), so its scaled rows are the same function of the argument. -/
theorem unit_at' (x : MatC) (i : Fin 8192) (d : Fin 128) :
    val_main_v15 (F := Ideal) x (ix2 i d) = Cert.Spec.unit x i d :=
  (congrFun (show val_main_v15 (F := Ideal) x = val_main_v7 (F := Ideal) x from rfl) (ix2 i d)).trans (unit_at x i d)

/-! ## Inner products and distances of scaled anchor rows -/

theorem lidx_gram (i j : Fin 8192) (k : Fin 128) : lidx_main_v16 (ix2 i j) k = ix2 i k :=
  funext fun a => Fin.ext (by match a with | ⟨0, _⟩ => rfl | ⟨1, _⟩ => rfl)

theorem ridx_gram (i j : Fin 8192) (k : Fin 128) : ridx_main_v16 (ix2 i j) k = ix2 j k :=
  funext fun a => Fin.ext (by match a with | ⟨0, _⟩ => rfl | ⟨1, _⟩ => rfl)

/-- The contraction over the 128 columns is the inner product of rows i and j. -/
theorem gram_at (x : MatC) (i j : Fin 8192) :
    val_main_v16 (F := Ideal) x (ix2 i j) = Cert.Spec.gram x i j := by
  rw [val_main_v16_apply]
  unfold Cert.Spec.gram
  refine Finset.sum_congr rfl fun k _ => ?_
  rw [lidx_gram, ridx_gram, unit_at, unit_at]

/-- √(max(2 − 2·gram, 0)), the four broadcast literals read as their words. -/
theorem dist_at (x : MatC) (i j : Fin 8192) :
    val_main_v23 (F := Ideal) x (ix2 i j) = Cert.Spec.dist x i j := by
  rw [val_main_v23_apply, val_main_v22_apply, val_main_v20_apply, val_main_v19_apply, val_main_cst_4_apply,
    val_main_v18_apply, val_main_v17_apply, val_main_cst_3_apply, gram_at, val_main_v21_apply,
    val_main_cst_5_apply, Ideal.hostUnary_sqrt_def, Ideal.maximumf_def, Ideal.subf_def, Ideal.mulf_def,
    Ideal.ofBits_def, Ideal.ofBits_def]
  rfl

/-! ## The label mask -/

/-- Equality of two words does not depend on the order they are compared in. -/
theorem cmpi_eq_comm (u v : BitVec 32) : IntOp.cmpi .eq u v = IntOp.cmpi .eq v u := by
  unfold IntOp.cmpi
  exact congrArg BitVec.ofBool (Bool.eq_iff_iff.2 (by simp only [beq_iff_eq]; exact eq_comm))

theorem idx_lab_col (i j : Fin 8192) : idx_main_v24 (idx_main_v26 (ix2 i j)) = ix1 j :=
  funext fun a => Fin.ext (by match a with | ⟨0, _⟩ => rfl)

theorem idx_lab_row (i j : Fin 8192) : idx_main_v25 (idx_main_v27 (ix2 i j)) = ix1 i :=
  funext fun a => Fin.ext (by match a with | ⟨0, _⟩ => rfl)

/-- The program compares label j (broadcast along rows) with label i (broadcast along columns); the
    specification compares them the other way round. -/
theorem masked_at (x : MatC) (l : LabC) (i j : Fin 8192) :
    val_main_v29 (F := Ideal) x l (ix2 i j) = Cert.Spec.masked x l i j := by
  rw [val_main_v29_apply, val_main_v28_apply, val_main_v26_apply, val_main_v24_apply, idx_lab_col,
    val_main_v27_apply, val_main_v25_apply, idx_lab_row, val_main_call0_v1_apply, val_main_call0_v0_apply,
    val_main_cst_6_apply, dist_at, cmpi_eq_comm, Ideal.ofBits_def]
  rfl

/-! ## The row minimum -/

/-- The reduced array's shape fact in the form the single-axis lemmas take. -/
theorem red_cols : S8192x8192.Reduces [1] S8192 := by decide

theorem lift_cols (i : Fin 8192) (k : Fin 8192) : red_cols.lift (ix1 i) k = ix2 i k :=
  funext fun a => Fin.ext (by match a with | ⟨0, _⟩ => rfl | ⟨1, _⟩ => rfl)

/-- A minimum-reduce along the columns of any 8192 × 8192 array, at row i: the fold of min over the row,
    started from the initial value. -/
theorem rowmin_at (y : S8192x8192.Idx → EReal) (c : S_.Idx → EReal) (i : Fin 8192) :
    Host.reduce (FloatOps.minimumf (F := Ideal) (φ := .f32)) y c reducesTo_S8192x8192_S8192_d1 h_S_ (ix1 i)
      = (Finset.univ : Finset (Fin 8192)).fold min (c ix0) (fun j => y (ix2 i j)) := by
  rw [Host.reduce_eq_fold_single (FloatOps.minimumf (F := Ideal) (φ := .f32)) y c reducesTo_S8192x8192_S8192_d1
    red_cols h_S_ (ix1 i)]
  refine (Finset.fold_congr (g := fun j : Fin 8192 => y (ix2 i j)) fun k _ => ?_).trans ?_
  · exact congrArg y (lift_cols i k)
  · rw [eq_ix0 (Shape.Idx.first h_S_)]
    rfl

/-- The distance from row i to the nearest row of another label. -/
theorem nearest_at (x : MatC) (l : LabC) (i : Fin 8192) :
    val_main_v30 (F := Ideal) x l (ix1 i) = Cert.Spec.nearest x l i := by
  unfold val_main_v30
  generalize hy : val_main_v29 (F := Ideal) x l = y
  rw [rowmin_at y _ i]
  unfold Cert.Spec.nearest
  refine (Finset.fold_congr (g := fun j : Fin 8192 => Cert.Spec.masked x l i j) fun k _ => ?_).trans ?_
  · rw [← hy, masked_at]
  · rfl

/-! ## Row losses, their sum and the mean -/

theorem idx_row' (i : Fin 8192) (k : Fin 128) : idx_main_v34 (ix1 i) k = ix2 i k :=
  funext fun a => Fin.ext (by match a with | ⟨0, _⟩ => rfl | ⟨1, _⟩ => rfl)

/-- The squared distance between the scaled anchor row and the scaled positive row, the zero initial value
    absorbed. -/
theorem posd_at (a p : MatC) (i : Fin 8192) :
    val_main_v34 (F := Ideal) a p (ix1 i) = Cert.Spec.posd a p i := by
  rw [val_main_v34_apply, val_main_cst_8_apply, Ideal.ofBits_def, Ideal.ofBits_zero_f32, zero_add]
  unfold Cert.Spec.posd
  refine Finset.sum_congr rfl fun k _ => ?_
  rw [idx_row', val_main_v33_apply, val_main_v32_apply, unit_at, unit_at', Ideal.mulf_def, Ideal.subf_def]

/-- max(posd − nearest² + ½, 0): the rectifier is a maximum with the broadcast zero word. -/
theorem loss_at (a p : MatC) (l : LabC) (i : Fin 8192) :
    val_main_v38 (F := Ideal) a p l (ix1 i) = Cert.Spec.loss a p l i := by
  rw [val_main_v38_apply, val_main_v37_apply, val_main_v35_apply, posd_at, val_main_v31_apply, nearest_at,
    val_main_v36_apply, val_main_cst_9_apply, val_main_call1_v0_apply, val_main_call1_cst_apply,
    Ideal.maximumf_def, Ideal.addf_def, Ideal.subf_def, Ideal.mulf_def, Ideal.ofBits_def, Ideal.ofBits_def]
  rfl

/-- A rank-one index of extent 8192 is its coordinate. -/
def rowEquiv : S8192.Idx ≃ Fin 8192 where
  toFun j := j 0
  invFun := ix1
  left_inv j := (eq_ix1 j).symm
  right_inv _ := rfl

/-- The sum of the 8192 row losses, the zero initial value absorbed. -/
theorem total_at (a p : MatC) (l : LabC) (s : S_.Idx) :
    val_main_v39 (F := Ideal) a p l s = ∑ i : Fin 8192, Cert.Spec.loss a p l i := by
  rw [val_main_v39_apply, val_main_cst_10_apply, Ideal.ofBits_def, Ideal.ofBits_zero_f32, zero_add]
  refine (Equiv.sum_comp rowEquiv.symm _).symm.trans ?_
  exact Finset.sum_congr rfl fun i _ => loss_at a p l i

/-- The reference's whole result is the specification's result. -/
theorem result_eq (a p : (⟨Cert.ReferenceIdeal.S8192x128, .f32⟩ : BufTy).Contents (Elt Ideal))
    (l : (⟨Cert.ReferenceIdeal.S8192, .i32⟩ : BufTy).Contents (Elt Ideal)) :
    Cert.ReferenceIdeal.Read.val_main_v40 (F := Ideal) a p l = fun _ => Cert.Spec.result a p l := by
  funext s
  rw [val_main_v40_apply, total_at, val_main_cst_11_apply, Ideal.hostDivf_def, Ideal.ofBits_def]
  rfl

end Cert.RefSide

end
-- ==== Proof.lean ====
/-
  A triplet loss with hard-negative mining, computed by two tiled kernels, against its one-pass reference: the five
  claims of the certificate.

  The loss: every anchor row and positive row is scaled to (clamped) unit length; for each anchor the squared distance
  to its positive, minus the squared distance to the nearest anchor of another label, plus a margin of one half, is
  clipped at zero; the result is the mean over the 8192 anchors (Proof/Spec.lean states it index by index).
    · The first kernel scales the rows and takes the distances to the positives, one block of 1024 rows per grid point.
    · The second visits an 8 × 16 grid of 1024 × 512 tiles of the pairwise distances, keeping for each row the minimum
      over the tiles seen so far in a scratch column, and writes a row block's losses at its last tile.
  The three frames: each program runs to the end without a fault and leaves its arguments as they were — for the
  kernel's program by running its two pipelines point by point against what each buffer holds between points, once
  for any float instance and read at the word-level and at the ideal one; for the reference by its straight-line run.
  The idealization changed no operation. On the extended reals the two programs end at the same number: the reference's
  result term is the specification's mean loss read index by index; the kernel's result buffer holds it because the
  minimum over 8192 columns taken tile by tile is the minimum taken in one pass, and the two-axis sum of an 8192 × 1
  column is the sum over its rows. No finiteness of the inputs is needed for either.
-/
import proofs.«170105_j8323646619735_1_alg».proof.Defs
import proofs.«170105_j8323646619735_1_alg».proof.Proof.Gen.Kernel
import proofs.«170105_j8323646619735_1_alg».proof.Proof.Gen.KernelIdeal
import proofs.«170105_j8323646619735_1_alg».proof.Proof.Gen.ReferenceIdeal
import proofs.«170105_j8323646619735_1_alg».proof.Proof.Gen.Pre_finite_inputs
import proofs.«170105_j8323646619735_1_alg».proof.Proof.Gen.ReferenceIdeal.Run
import proofs.«170105_j8323646619735_1_alg».proof.Proof.Gen.ReferenceIdeal.Read
import proofs.«170105_j8323646619735_1_alg».proof.Proof.RunK
import proofs.«170105_j8323646619735_1_alg».proof.Proof.Run
import proofs.«170105_j8323646619735_1_alg».proof.Proof.KernelValue
import proofs.«170105_j8323646619735_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.RunK.frame m ρ

/-- So does its reading on the extended reals. -/
theorem frame_kernelIdeal : Cert.frame_KernelIdeal := fun m ρ _ => Cert.KernelIdeal.RunK.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's mean loss in their result
    buffers, and their arguments unchanged. -/
theorem algebraic : Cert.algebraic_KernelIdeal_ReferenceIdeal := by
  intro m ρ m' ρ' _ hagree
  refine ⟨fun c => fun _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.RunK.run_all (F := Ideal) m ρ)
    · exact (h c _ (Cert.KernelIdeal.RunK.mem_uc Cert.KernelIdeal.main_v5 (by decide))).trans (Cert.KernelIdeal.KV.result_value m c)
    · exact (h c _ (Cert.KernelIdeal.RunK.mem_uc Cert.KernelIdeal.main_arg0 (by decide))).trans (Cert.KernelIdeal.RunK.W4_main_arg0 m c)
    · exact (h c _ (Cert.KernelIdeal.RunK.mem_uc Cert.KernelIdeal.main_arg1 (by decide))).trans (Cert.KernelIdeal.RunK.W4_main_arg1 m c)
    · exact (h c _ (Cert.KernelIdeal.RunK.mem_uc Cert.KernelIdeal.main_arg2 (by decide))).trans (Cert.KernelIdeal.RunK.W4_main_arg2 m c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v40_eq, Cert.RefSide.result_eq, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
